-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_scale" .f32 0x3DB504F3#32 ((1048576 / 11863283 : ℝ) : EReal)
  ∧ IdealRules.named_const.Statement Cert.KernelIdeal.κ "inv_scale" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S128x256 : Shape := ⟨2, ![128, 256]⟩
abbrev S128 : Shape := ⟨1, ![128]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x256 .f32) (main_arg6 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S64x1024x256 .f32) (main_arg1 : FVec F S128x256 .f32) (main_arg2 : FVec F S128 .f32) (main_arg3 : FVec F S128x256 .f32) (main_arg4 : FVec F S128 .f32) (main_arg5 : FVec F S128x256 .f32) (main_arg6 : FVec F S128 .f32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S64x1024x256 : Shape := ⟨3, ![64, 1024, 256]⟩
abbrev S128x256 : Shape := ⟨2, ![128, 256]⟩
abbrev S128 : Shape := ⟨1, ![128]⟩
abbrev S384x256 : Shape := ⟨2, ![384, 256]⟩
abbrev S384 : Shape := ⟨1, ![384]⟩
abbrev S1x384 : Shape := ⟨2, ![1, 384]⟩
abbrev S64x1x128 : Shape := ⟨3, ![64, 1, 128]⟩
abbrev S2x1024x256 : Shape := ⟨3, ![2, 1024, 256]⟩
abbrev S2x1x128 : Shape := ⟨3, ![2, 1, 128]⟩
abbrev S1x1024x256 : Shape := ⟨3, ![1, 1024, 256]⟩
abbrev S1024x256 : Shape := ⟨2, ![1024, 256]⟩
abbrev S1024x384 : Shape := ⟨2, ![1024, 384]⟩
abbrev S1024x128 : Shape := ⟨2, ![1024, 128]⟩
abbrev S1024x1024 : Shape := ⟨2, ![1024, 1024]⟩
abbrev S1024 : Shape := ⟨1, ![1024]⟩
abbrev S1x1024 : Shape := ⟨2, ![1, 1024]⟩
abbrev S1x128 : Shape := ⟨2, ![1, 128]⟩
abbrev S1x1x128 : Shape := ⟨3, ![1, 1, 128]⟩
abbrev S64x128 : Shape := ⟨2, ![64, 128]⟩

abbrev nBuf : Space → Nat
  | .hbm => 12
  | .vmem => 6
  | .smem => 0
  | _ => 0

abbrev bufTy : (tb : Table) → Fin (tcTables nBuf tb) → BufTy
  | .hbm, ⟨0, _⟩ => ⟨S64x1024x256, .f32⟩
  | .hbm, ⟨1, _⟩ => ⟨S128x256, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S384x256, .f32⟩
  | .hbm, ⟨8, _⟩ => ⟨S384, .f32⟩
  | .hbm, ⟨9, _⟩ => ⟨S1x384, .f32⟩
  | .hbm, ⟨10, _⟩ => ⟨S64x1x128, .f32⟩
  | .hbm, ⟨11, _⟩ => ⟨S64x128, .f32⟩
  | .local _ .vmem, ⟨0, _⟩ => ⟨S2x1024x256, .f32⟩
  | .local _ .vmem, ⟨1, _⟩ => ⟨S2x1024x256, .f32⟩
  | .local _ .vmem, ⟨2, _⟩ => ⟨S384x256, .f32⟩
  | .local _ .vmem, ⟨3, _⟩ => ⟨S1x384, .f32⟩
  | .local _ .vmem, ⟨4, _⟩ => ⟨S2x1x128, .f32⟩
  | .local _ .vmem, ⟨5, _⟩ => ⟨S2x1x128, .f32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S128x256_S128x256_S128x256_S384x256_d0 : Shape.Concatenates [S128x256, S128x256, S128x256] S384x256 0
  concatenates_S128_S128_S128_S384_d0 : Shape.Concatenates [S128, S128, S128] S384 0
  shapeCasts_S384_S1x384 : S384.ShapeCasts S1x384
  inb_S384x256_S384x256_0_0 : ∀ a, (![0, 0] : Fin 2 → Nat) a + S384x256.size a ≤ S384x256.size a
  h_S384x256 : 0 < S384x256.numel
  shapeCasts_S384x256_S384x256 : S384x256.ShapeCasts S384x256
  bitsLt_bf16_f32 : FTy.bits .bf16 < FTy.bits .f32
  inb_S1x384_S1x384_0_0 : ∀ a, (![0, 0] : Fin 2 → Nat) a + S1x384.size a ≤ S1x384.size a
  h_S1x384 : 0 < S1x384.numel
  shapeCasts_S1x384_S1x384 : S1x384.ShapeCasts S1x384
  inb_S2x1024x256_S1x1024x256_0_0_0 : ∀ a, (![0, 0, 0] : Fin 3 → Nat) a + S1x1024x256.size a ≤ S2x1024x256.size a
  h_S1x1024x256 : 0 < S1x1024x256.numel
  shapeCasts_S1x1024x256_S1024x256 : S1x1024x256.ShapeCasts S1024x256
  broadcasts_S1x384_S1024x384 : S1x384.Broadcasts S1024x384
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  reduces_S1024x1024_S1024 : S1024x1024.Reduces [0] S1024
  shapeCasts_S1024_S1x1024 : S1024.ShapeCasts S1x1024
  broadcasts_S1x1024_S1024x1024 : S1x1024.Broadcasts S1024x1024
  reduces_S1024x128_S128 : S1024x128.Reduces [0] S128
  shapeCasts_S128_S1x128 : S128.ShapeCasts S1x128
  inb_S2x1x128_S1x1x128_0_0_0 : ∀ a, (![0, 0, 0] : Fin 3 → Nat) a + S1x1x128.size a ≤ S2x1x128.size a
  h_S1x1x128 : 0 < S1x1x128.numel
  shapeCasts_S1x1x128_S1x128 : S1x1x128.ShapeCasts S1x128
  shapeCasts_S1x128_S1x1x128 : S1x128.ShapeCasts S1x1x128
  inb_S2x1024x256_S1x1024x256_1_0_0 : ∀ a, (![1, 0, 0] : Fin 3 → Nat) a + S1x1024x256.size a ≤ S2x1024x256.size a
  inb_S2x1x128_S1x1x128_1_0_0 : ∀ a, (![1, 0, 0] : Fin 3 → Nat) a + S1x1x128.size a ≤ S2x1x128.size a
  shapeCasts_S64x1x128_S64x128 : S64x1x128.ShapeCasts S64x128
  dot_S1024x256_S384x256_S1024x384_1_1_0_0_n_n_wf : DotDims.WF S1024x256 S384x256 S1024x384 [1] [1] [0] [0] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x256.size a ≤ S64x1024x256.size a
  hwx0_0 : ∀ i : grid0.Coords, EltTy.bits .f32 = 32 ∨ (Rect.block (s := S64x1024x256) S2x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x256.size a ≤ S384x256.size a
  hwx0_1 : ∀ i : grid0.Coords, EltTy.bits .f32 = 32 ∨ (Rect.block (s := S384x256) S384x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x128.size a ≤ S64x1x128.size a
  hwx0_3 : ∀ i : grid0.Coords, EltTy.bits .f32 = 32 ∨ (Rect.block (s := S64x1x128) S2x1x128.size (cc0_transform_3 i) (hinb0_3 i)).WholeWords (EltTy.packing .f32)

variable [Facts₀]

def dot_S1024x256_S384x256_S1024x384_1_1_0_0_n_n : DotDims S1024x256 S384x256 S1024x384 where
  lhsContracting := [1]
  rhsContracting := [1]
  lhsNonContracting := [0]
  rhsNonContracting := [0]
  lhsBatch := []
  rhsBatch := []
  wf := dot_S1024x256_S384x256_S1024x384_1_1_0_0_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S2x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S384x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024x256 : Shape := ⟨3, ![64, 1024, 256]⟩
abbrev S128x256 : Shape := ⟨2, ![128, 256]⟩
abbrev S128 : Shape := ⟨1, ![128]⟩
abbrev S64x1024x128 : Shape := ⟨3, ![64, 1024, 128]⟩
abbrev S1x1x128 : Shape := ⟨3, ![1, 1, 128]⟩
abbrev S64x1024x1024 : Shape := ⟨3, ![64, 1024, 1024]⟩
abbrev S_ : Shape := ⟨0, ![]⟩
abbrev S64x1024 : Shape := ⟨2, ![64, 1024]⟩
abbrev S64x1x1024 : Shape := ⟨3, ![64, 1, 1024]⟩
abbrev S64x128 : Shape := ⟨2, ![64, 128]⟩

abbrev nBuf : Space → Nat
  | .hbm => 40
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S128x256, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S64x1024x128, .f32⟩
  | .hbm, ⟨8, _⟩ => ⟨S1x1x128, .f32⟩
  | .hbm, ⟨9, _⟩ => ⟨S64x1024x128, .f32⟩
  | .hbm, ⟨10, _⟩ => ⟨S64x1024x128, .f32⟩
  | .hbm, ⟨11, _⟩ => ⟨S64x1024x128, .f32⟩
  | .hbm, ⟨12, _⟩ => ⟨S1x1x128, .f32⟩
  | .hbm, ⟨13, _⟩ => ⟨S64x1024x128, .f32⟩
  | .hbm, ⟨14, _⟩ => ⟨S64x1024x128, .f32⟩
  | .hbm, ⟨15, _⟩ => ⟨S64x1024x128, .f32⟩
  | .hbm, ⟨16, _⟩ => ⟨S1x1x128, .f32⟩
  | .hbm, ⟨17, _⟩ => ⟨S64x1024x128, .f32⟩
  | .hbm, ⟨18, _⟩ => ⟨S64x1024x128, .f32⟩
  | .hbm, ⟨19, _⟩ => ⟨S64x1024x1024, .f32⟩
  | .hbm, ⟨20, _⟩ => ⟨S_, .f32⟩
  | .hbm, ⟨21, _⟩ => ⟨S64x1024x1024, .f32⟩
  | .hbm, ⟨22, _⟩ => ⟨S64x1024x1024, .f32⟩
  | .hbm, ⟨23, _⟩ => ⟨S_, .f32⟩
  | .hbm, ⟨24, _⟩ => ⟨S64x1024, .f32⟩
  | .hbm, ⟨25, _⟩ => ⟨S_, .f32⟩
  | .hbm, ⟨26, _⟩ => ⟨S64x1024, .f32⟩
  | .hbm, ⟨27, _⟩ => ⟨S64x1024, .f32⟩
  | .hbm, ⟨28, _⟩ => ⟨S64x1x1024, .f32⟩
  | .hbm, ⟨29, _⟩ => ⟨S64x1024x1024, .f32⟩
  | .hbm, ⟨30, _⟩ => ⟨S64x1024x1024, .f32⟩
  | .hbm, ⟨31, _⟩ => ⟨S64x1024x1024, .f32⟩
  | .hbm, ⟨32, _⟩ => ⟨S_, .f32⟩
  | .hbm, ⟨33, _⟩ => ⟨S64x1024, .f32⟩
  | .hbm, ⟨34, _⟩ => ⟨S64x1x1024, .f32⟩
  | .hbm, ⟨35, _⟩ => ⟨S64x1024x1024, .f32⟩
  | .hbm, ⟨36, _⟩ => ⟨S64x1024x1024, .f32⟩
  | .hbm, ⟨37, _⟩ => ⟨S64x1024x128, .f32⟩
  | .hbm, ⟨38, _⟩ => ⟨S_, .f32⟩
  | .hbm, ⟨39, _⟩ => ⟨S64x128, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S64x1024x128_0_1_2 : S1x1x128.BroadcastsInDim S64x1024x128 (![0, 1, 2] : Fin 3 → Fin S64x1024x128.rank)
  bcast_S_S64x1024x1024 : S_.BroadcastsInDim S64x1024x1024 (![] : Fin 0 → Fin S64x1024x1024.rank)
  reducesTo_S64x1024x1024_S64x1024_d1 : S64x1024x1024.ReducesTo [1] S64x1024
  h_S_ : 0 < S_.numel
  bcast_S_S64x1024 : S_.BroadcastsInDim S64x1024 (![] : Fin 0 → Fin S64x1024.rank)
  bcast_S64x1024_S64x1x1024_0_2 : S64x1024.BroadcastsInDim S64x1x1024 (![0, 2] : Fin 2 → Fin S64x1x1024.rank)
  bcast_S64x1x1024_S64x1024x1024_0_1_2 : S64x1x1024.BroadcastsInDim S64x1024x1024 (![0, 1, 2] : Fin 3 → Fin S64x1024x1024.rank)
  reducesTo_S64x1024x128_S64x128_d1 : S64x1024x128.ReducesTo [1] S64x128
  dot_S64x1024x256_S128x256_S64x1024x128_2_1_01_0_n_n_wf : DotDims.WF S64x1024x256 S128x256 S64x1024x128 [2] [1] [0, 1] [0] [] []
  dot_S64x1024x128_S64x1024x128_S64x1024x1024_2_2_1_1_0_0_wf : DotDims.WF S64x1024x128 S64x1024x128 S64x1024x1024 [2] [2] [1] [1] [0] [0]
  dot_S64x1024x1024_S64x1024x128_S64x1024x128_2_1_1_2_0_0_wf : DotDims.WF S64x1024x1024 S64x1024x128 S64x1024x128 [2] [1] [1] [2] [0] [0]

variable [Facts₀]

def dot_S64x1024x256_S128x256_S64x1024x128_2_1_01_0_n_n : DotDims S64x1024x256 S128x256 S64x1024x128 where
  lhsContracting := [2]
  rhsContracting := [1]
  lhsNonContracting := [0, 1]
  rhsNonContracting := [0]
  lhsBatch := []
  rhsBatch := []
  wf := dot_S64x1024x256_S128x256_S64x1024x128_2_1_01_0_n_n_wf
def dot_S64x1024x128_S64x1024x128_S64x1024x1024_2_2_1_1_0_0 : DotDims S64x1024x128 S64x1024x128 S64x1024x1024 where
  lhsContracting := [2]
  rhsContracting := [2]
  lhsNonContracting := [1]
  rhsNonContracting := [1]
  lhsBatch := [0]
  rhsBatch := [0]
  wf := dot_S64x1024x128_S64x1024x128_S64x1024x1024_2_2_1_1_0_0_wf
def dot_S64x1024x1024_S64x1024x128_S64x1024x128_2_1_1_2_0_0 : DotDims S64x1024x1024 S64x1024x128 S64x1024x128 where
  lhsContracting := [2]
  rhsContracting := [1]
  lhsNonContracting := [1]
  rhsNonContracting := [2]
  lhsBatch := [0]
  rhsBatch := [0]
  wf := dot_S64x1024x1024_S64x1024x128_S64x1024x128_2_1_1_2_0_0_wf

class Facts : Prop extends Facts₀ where

variable [Facts]
-- ==== Proof.KernelFrame.lean ====
/-
  The frame of `Kernel`: every weakly fair execution of @main terminates, nothing faults, and the seven argument
  arrays end as launched — together with what the run leaves in every array the one region stages.

  @main is three host lines (the three weight matrices stacked into one `[384, 256]` array, the three bias vectors laid
  end to end and recast as one row `[1, 384]`), the region, and one host line recasting the region's `[64, 1, 128]`
  result as `[64, 128]`. The region walks 32 grid points; point `t` is handed batch elements `2t` and `2t + 1` of the
  first argument (a block `[2, 1024, 256]`), the whole stacked weights and the whole bias row, and an output block
  `[2, 1, 128]`. The body is straight-line: it loads the weights, the bias row and the two batch elements, and stores one
  row `[1, 1, 128]` of the output block per batch element; the two stored rows tile the block, so whatever the block held
  before (the body also loads it, and discards what it loaded) is overwritten. What the block holds afterwards is the
  canonical reading of the two stores over the loaded values (`out3`).
  Everything here is stated for any interpretation `F` of the floating-point operations: the frame never looks at
  a value.
-/
import proofs.«170889_j5738076307482_2_alg».proof.Proof.Gen.Kernel.Launch
import proofs.«170889_j5738076307482_2_alg».proof.Proof.Gen.Kernel.Skeleton
import proofs.«170889_j5738076307482_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: the launch contents after the three host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes only its own result, which is none of the four staged arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- Nor does the line after it: argument 1, which no window stages, ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does the line after it: argument 2, which no window stages, ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does the line after it: argument 3, which no window stages, ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does the line after it: argument 4, which no window stages, ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Nor does the line after it: argument 5, which no window stages, ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Nor does the line after it: argument 6, which no window stages, ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether or not it was fetched there
    (unfetched, its block index has not moved), for any proof data over the region-entry arrays whose body leaves the
    block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether or not it was fetched there
    (unfetched, its block index has not moved), for any proof data over the region-entry arrays whose body leaves the
    block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether or not it was fetched there
    (unfetched, its block index has not moved), for any proof data over the region-entry arrays whose body leaves the
    block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The stacked weights, whole. -/
abbrev rW : Rect S384x256 := Rect.unit (s := S384x256) ![0, 0] S384x256.size inb_S384x256_S384x256_0_0
/-- The bias row, whole. -/
abbrev rB : Rect S1x384 := Rect.unit (s := S1x384) ![0, 0] S1x384.size inb_S1x384_S1x384_0_0
/-- The first and the second batch element of the input block. -/
abbrev rQ0 : Rect S2x1024x256 := Rect.unit (s := S2x1024x256) ![0, 0, 0] S1x1024x256.size inb_S2x1024x256_S1x1024x256_0_0_0
abbrev rQ1 : Rect S2x1024x256 := Rect.unit (s := S2x1024x256) ![1, 0, 0] S1x1024x256.size inb_S2x1024x256_S1x1024x256_1_0_0
/-- The first and the second row of the output block. -/
abbrev rO0 : Rect S2x1x128 := Rect.unit (s := S2x1x128) ![0, 0, 0] S1x1x128.size inb_S2x1x128_S1x1x128_0_0_0
abbrev rO1 : Rect S2x1x128 := Rect.unit (s := S2x1x128) ![1, 0, 0] S1x1x128.size inb_S2x1x128_S1x1x128_1_0_0

/-! ## What the body leaves in the output block -/

/-- The output block after the body, from the three input blocks: its two stores as pieces, the later one first. -/
def out3 (x0 : Vec F S2x1024x256 .f32) (x1 : Vec F S384x256 .f32) (x2 : Vec F S1x384 .f32) : Vec F S2x1x128 .f32 :=
  View.canon [⟨rO1, k0_pay1 (k0_pay2 (View.ld x1 rW)) (k0_pay3 (View.ld x2 rB)) (View.ld x0 rQ1)⟩,
    ⟨rO0, k0_pay4 (View.ld x1 rW) (View.ld x2 rB) (View.ld x0 rQ0)⟩]

/-- The two stored rows tile the block, so they cover it. -/
theorem cover3 (p1 p0 : Vec F S1x1x128 .f32) (y : S2x1x128.Idx) :
    ∃ pc ∈ ([⟨rO1, p1⟩, ⟨rO0, p0⟩] : List (View.Piece (Elt F) S2x1x128 .f32)), y ∈ pc.1.set :=
  View.cover_of_tiled [⟨rO1, p1⟩, ⟨rO0, p0⟩] S1x1x128.size (by rfl) y

/-! ## The body's triple -/

set_option maxHeartbeats 4000000 in
/-- The body on whole staging memrefs — the three inputs at contents `x0`, `x1`, `x2`, the output at anything — runs to
    its end leaving the inputs as they were and the output block at `out3` of them. -/
theorem sound_kernel (c : Dev nD) (E : Set ℕ) (i : grid0.Coords)
    (arg1 : Memref sig .tc .vmem S2x1024x256 .f32) (harg1 : arg1.IsWhole) (arg2 : Memref sig .tc .vmem S384x256 .f32) (harg2 : arg2.IsWhole)
    (arg3 : Memref sig .tc .vmem S1x384 .f32) (harg3 : arg3.IsWhole) (arg4 : Memref sig .tc .vmem S2x1x128 .f32) (harg4 : arg4.IsWhole)
    (x0 : Vec F S2x1024x256 .f32) (x1 : Vec F S384x256 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__attn_kernel i arg1 harg1 arg2 harg2 arg3 harg3 arg4 harg4) K := by
  simp only [cc0__attn_kernel_eq_skeleton]; unfold cc0__attn_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _ _)

/-! ## The pipeline's proof data -/

/-- The proof data of the one pipeline on core `c`: the arrays as the region finds them; after the body at point `t`
    each input's buffer at its block and the output's at `out3` of the input blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = out3 (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every staged array at what the proof data computes and every other unscoped buffer as the line after the region
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the seven argument arrays end as launched. The first is staged by window 0 as an input, so the run
    leaves it at its region-entry contents; the other six are staged by no window and written by no host line. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Kernel.Frame

end
-- ==== Proof.KernelIdealFrame.lean ====
/-
  The frame of `KernelIdeal`: every weakly fair execution of @main terminates, nothing faults, and the seven argument
  arrays end as launched — together with what the run leaves in every array the one region stages.

  @main is three host lines (the three weight matrices stacked into one `[384, 256]` array, the three bias vectors laid
  end to end and recast as one row `[1, 384]`), the region, and one host line recasting the region's `[64, 1, 128]`
  result as `[64, 128]`. The region walks 32 grid points; point `t` is handed batch elements `2t` and `2t + 1` of the
  first argument (a block `[2, 1024, 256]`), the whole stacked weights and the whole bias row, and an output block
  `[2, 1, 128]`. The body is straight-line: it loads the weights, the bias row and the two batch elements, and stores one
  row `[1, 1, 128]` of the output block per batch element; the two stored rows tile the block, so whatever the block held
  before (the body also loads it, and discards what it loaded) is overwritten. What the block holds afterwards is the
  canonical reading of the two stores over the loaded values (`out3`).
  Everything here is stated for any interpretation `F` of the floating-point operations: the frame never looks at
  a value.
-/
import proofs.«170889_j5738076307482_2_alg».proof.Proof.Gen.KernelIdeal.Launch
import proofs.«170889_j5738076307482_2_alg».proof.Proof.Gen.KernelIdeal.Skeleton
import proofs.«170889_j5738076307482_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: the launch contents after the three host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes only its own result, which is none of the four staged arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.reshape_writes, Finset.mem_singleton]
    repeat' apply And.intro
    all_goals exact StableHlo.devRef_ne_of_ne (by decide)))

/-- Nor does the line after it: argument 1, which no window stages, ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nor does the line after it: argument 2, which no window stages, ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nor does the line after it: argument 3, which no window stages, ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nor does the line after it: argument 4, which no window stages, ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Nor does the line after it: argument 5, which no window stages, ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Nor does the line after it: argument 6, which no window stages, ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether or not it was fetched there
    (unfetched, its block index has not moved), for any proof data over the region-entry arrays whose body leaves the
    block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether or not it was fetched there
    (unfetched, its block index has not moved), for any proof data over the region-entry arrays whose body leaves the
    block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether or not it was fetched there
    (unfetched, its block index has not moved), for any proof data over the region-entry arrays whose body leaves the
    block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The stacked weights, whole. -/
abbrev rW : Rect S384x256 := Rect.unit (s := S384x256) ![0, 0] S384x256.size inb_S384x256_S384x256_0_0
/-- The bias row, whole. -/
abbrev rB : Rect S1x384 := Rect.unit (s := S1x384) ![0, 0] S1x384.size inb_S1x384_S1x384_0_0
/-- The first and the second batch element of the input block. -/
abbrev rQ0 : Rect S2x1024x256 := Rect.unit (s := S2x1024x256) ![0, 0, 0] S1x1024x256.size inb_S2x1024x256_S1x1024x256_0_0_0
abbrev rQ1 : Rect S2x1024x256 := Rect.unit (s := S2x1024x256) ![1, 0, 0] S1x1024x256.size inb_S2x1024x256_S1x1024x256_1_0_0
/-- The first and the second row of the output block. -/
abbrev rO0 : Rect S2x1x128 := Rect.unit (s := S2x1x128) ![0, 0, 0] S1x1x128.size inb_S2x1x128_S1x1x128_0_0_0
abbrev rO1 : Rect S2x1x128 := Rect.unit (s := S2x1x128) ![1, 0, 0] S1x1x128.size inb_S2x1x128_S1x1x128_1_0_0

/-! ## What the body leaves in the output block -/

/-- The output block after the body, from the three input blocks: its two stores as pieces, the later one first. -/
def out3 (x0 : Vec F S2x1024x256 .f32) (x1 : Vec F S384x256 .f32) (x2 : Vec F S1x384 .f32) : Vec F S2x1x128 .f32 :=
  View.canon [⟨rO1, k0_pay1 (k0_pay2 (View.ld x1 rW)) (k0_pay3 (View.ld x2 rB)) (View.ld x0 rQ1)⟩,
    ⟨rO0, k0_pay4 (View.ld x1 rW) (View.ld x2 rB) (View.ld x0 rQ0)⟩]

/-- The two stored rows tile the block, so they cover it. -/
theorem cover3 (p1 p0 : Vec F S1x1x128 .f32) (y : S2x1x128.Idx) :
    ∃ pc ∈ ([⟨rO1, p1⟩, ⟨rO0, p0⟩] : List (View.Piece (Elt F) S2x1x128 .f32)), y ∈ pc.1.set :=
  View.cover_of_tiled [⟨rO1, p1⟩, ⟨rO0, p0⟩] S1x1x128.size (by rfl) y

/-! ## The body's triple -/

set_option maxHeartbeats 4000000 in
/-- The body on whole staging memrefs — the three inputs at contents `x0`, `x1`, `x2`, the output at anything — runs to
    its end leaving the inputs as they were and the output block at `out3` of them. -/
theorem sound_kernel (c : Dev nD) (E : Set ℕ) (i : grid0.Coords)
    (arg1 : Memref sig .tc .vmem S2x1024x256 .f32) (harg1 : arg1.IsWhole) (arg2 : Memref sig .tc .vmem S384x256 .f32) (harg2 : arg2.IsWhole)
    (arg3 : Memref sig .tc .vmem S1x384 .f32) (harg3 : arg3.IsWhole) (arg4 : Memref sig .tc .vmem S2x1x128 .f32) (harg4 : arg4.IsWhole)
    (x0 : Vec F S2x1024x256 .f32) (x1 : Vec F S384x256 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__attn_kernel i arg1 harg1 arg2 harg2 arg3 harg3 arg4 harg4) K := by
  simp only [cc0__attn_kernel_eq_skeleton]; unfold cc0__attn_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _ _)

/-! ## The pipeline's proof data -/

/-- The proof data of the one pipeline on core `c`: the arrays as the region finds them; after the body at point `t`
    each input's buffer at its block and the output's at `out3` of the input blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = out3 (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every staged array at what the proof data computes and every other unscoped buffer as the line after the region
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the seven argument arrays end as launched. The first is staged by window 0 as an input, so the run
    leaves it at its region-entry contents; the other six are staged by no window and written by no host line. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Frame

end
-- ==== Proof.AttnSpec.lean ====
/-
  What both programs compute, as one function of the seven argument arrays.

  For one batch element with rows `q : 1024 × 256`: the three affine projections
  `P_W,b(s, y) = Σ_x q(s, x) · W(y, x) + b(y)` (queries, keys, values); the scores
  `S(i, k) = (Σ_d Q(i, d) · K(k, d)) · scale`; a softmax taken DOWN each column `k` (over the query index `i`):
  `w(i, k) = exp(S(i, k) − max_i S(i, k)) / Σ_i exp(S(i, k) − max_i S(i, k))`; the mixture
  `O(i, d) = Σ_k w(i, k) · V(k, d)`; and the pooled result `max_i O(i, d)`.
  Every operation is the extended reals' own (sums, products, `Ideal.exp`, `Ideal.div`, `max` folded from −∞), so the
  function is defined for all extended-real inputs and no finiteness is used anywhere.
  `scale` is the reciprocal of the divisor the reference spells, 11863283 / 1048576.
-/
import Idealize.ShloMosaic.PureOps.Ideal
import Idealize.ShloMosaic.Lib.ValueIdx

noncomputable section

namespace Cert.AttnSpec

open Idealize.ShloMosaic Idealize.ShloMosaic.ValueIdx

/-- −∞, spelt as the word both programs start their maxima from. -/
abbrev ninf : EReal := Ideal.ofBits .f32 0xFF800000#32

/-- The factor a raw score is multiplied by. -/
abbrev scale : EReal := ((1048576 / 11863283 : ℝ) : EReal)

/-- An affine projection of the rows of `q`. -/
def proj (q : Fin 1024 → Fin 256 → EReal) (W : Fin 128 → Fin 256 → EReal) (b : Fin 128 → EReal)
    (s : Fin 1024) (y : Fin 128) : EReal :=
  (∑ x : Fin 256, q s x * W y x) + b y

/-- The same projection read out of three weight matrices stacked on top of each other (384 rows) and three bias
    vectors laid end to end, the block starting at row `o`. -/
def projCat (q : Fin 1024 → Fin 256 → EReal) (Wc : Fin 384 → Fin 256 → EReal) (bc : Fin 384 → EReal)
    (o : Nat) (ho : o + 128 ≤ 384) (s : Fin 1024) (y : Fin 128) : EReal :=
  (∑ x : Fin 256, q s x * Wc ⟨o + y.val, by omega⟩ x) + bc ⟨o + y.val, by omega⟩

/-- Scaled scores of query row `i` against key row `k`. -/
def score (Q K : Fin 1024 → Fin 128 → EReal) (i k : Fin 1024) : EReal :=
  (∑ d : Fin 128, Q i d * K k d) * scale

/-- The largest score in column `k`. -/
def colMax (S : Fin 1024 → Fin 1024 → EReal) (k : Fin 1024) : EReal :=
  (Finset.univ : Finset (Fin 1024)).fold max ninf (fun i => S i k)

/-- The shifted exponential. -/
def expo (S : Fin 1024 → Fin 1024 → EReal) (i k : Fin 1024) : EReal :=
  Ideal.exp (S i k - colMax S k)

/-- A column's normaliser. -/
def colSum (S : Fin 1024 → Fin 1024 → EReal) (k : Fin 1024) : EReal :=
  ∑ i : Fin 1024, expo S i k

/-- The softmax weight, normalised down column `k`. -/
def weight (S : Fin 1024 → Fin 1024 → EReal) (i k : Fin 1024) : EReal :=
  Ideal.div (expo S i k) (colSum S k)

/-- The weighted mixture of the value rows. -/
def mix (S : Fin 1024 → Fin 1024 → EReal) (V : Fin 1024 → Fin 128 → EReal) (i : Fin 1024) (d : Fin 128) : EReal :=
  ∑ k : Fin 1024, weight S i k * V k d

/-- The mixture pooled by its maximum over the query rows. -/
def pooled (S : Fin 1024 → Fin 1024 → EReal) (V : Fin 1024 → Fin 128 → EReal) (d : Fin 128) : EReal :=
  (Finset.univ : Finset (Fin 1024)).fold max ninf (fun i => mix S V i d)

/-- One batch element, from separate weights. -/
def head (q : Fin 1024 → Fin 256 → EReal) (Wq : Fin 128 → Fin 256 → EReal) (bq : Fin 128 → EReal)
    (Wk : Fin 128 → Fin 256 → EReal) (bk : Fin 128 → EReal) (Wv : Fin 128 → Fin 256 → EReal) (bv : Fin 128 → EReal)
    (d : Fin 128) : EReal :=
  pooled (score (proj q Wq bq) (proj q Wk bk)) (proj q Wv bv) d

/-- One batch element, from the stacked weights. -/
def headCat (q : Fin 1024 → Fin 256 → EReal) (Wc : Fin 384 → Fin 256 → EReal) (bc : Fin 384 → EReal) (d : Fin 128) : EReal :=
  pooled (score (projCat q Wc bc 0 (by omega)) (projCat q Wc bc 128 (by omega))) (projCat q Wc bc 256 (by omega)) d

/-- Stacking the three weight matrices and laying the three bias vectors end to end changes nothing. -/
theorem headCat_eq_head (q : Fin 1024 → Fin 256 → EReal) (Wc : Fin 384 → Fin 256 → EReal) (bc : Fin 384 → EReal)
    (Wq : Fin 128 → Fin 256 → EReal) (bq : Fin 128 → EReal)
    (Wk : Fin 128 → Fin 256 → EReal) (bk : Fin 128 → EReal) (Wv : Fin 128 → Fin 256 → EReal) (bv : Fin 128 → EReal)
    (hWq : ∀ (y : Fin 128) (h : 0 + y.val < 384) x, Wc ⟨0 + y.val, h⟩ x = Wq y x)
    (hWk : ∀ (y : Fin 128) (h : 128 + y.val < 384) x, Wc ⟨128 + y.val, h⟩ x = Wk y x)
    (hWv : ∀ (y : Fin 128) (h : 256 + y.val < 384) x, Wc ⟨256 + y.val, h⟩ x = Wv y x)
    (hbq : ∀ (y : Fin 128) (h : 0 + y.val < 384), bc ⟨0 + y.val, h⟩ = bq y)
    (hbk : ∀ (y : Fin 128) (h : 128 + y.val < 384), bc ⟨128 + y.val, h⟩ = bk y)
    (hbv : ∀ (y : Fin 128) (h : 256 + y.val < 384), bc ⟨256 + y.val, h⟩ = bv y)
    (d : Fin 128) : headCat q Wc bc d = head q Wq bq Wk bk Wv bv d := by
  have e0 : projCat q Wc bc 0 (by omega) = proj q Wq bq := by
    funext s y; unfold projCat proj; rw [hbq]; congr 1
    exact Finset.sum_congr rfl fun x _ => by rw [hWq]
  have e1 : projCat q Wc bc 128 (by omega) = proj q Wk bk := by
    funext s y; unfold projCat proj; rw [hbk]; congr 1
    exact Finset.sum_congr rfl fun x _ => by rw [hWk]
  have e2 : projCat q Wc bc 256 (by omega) = proj q Wv bv := by
    funext s y; unfold projCat proj; rw [hbv]; congr 1
    exact Finset.sum_congr rfl fun x _ => by rw [hWv]
  unfold headCat head
  rw [e0, e1, e2]

/-- The whole result array `[64, 128]`: batch element `j 0`, feature `j 1`. -/
def G (q : (⟨3, ![64, 1024, 256]⟩ : Shape).Idx → EReal)
    (Wq : (⟨2, ![128, 256]⟩ : Shape).Idx → EReal) (bq : (⟨1, ![128]⟩ : Shape).Idx → EReal)
    (Wk : (⟨2, ![128, 256]⟩ : Shape).Idx → EReal) (bk : (⟨1, ![128]⟩ : Shape).Idx → EReal)
    (Wv : (⟨2, ![128, 256]⟩ : Shape).Idx → EReal) (bv : (⟨1, ![128]⟩ : Shape).Idx → EReal) :
    (⟨2, ![64, 128]⟩ : Shape).Idx → EReal :=
  fun j => head (fun s x => q (ix3 (⟨(j 0).val, idx2_lt0 j⟩ : Fin 64) s x))
    (fun y x => Wq (ix2 y x)) (fun y => bq (ix1 y))
    (fun y x => Wk (ix2 y x)) (fun y => bk (ix1 y))
    (fun y x => Wv (ix2 y x)) (fun y => bv (ix1 y))
    (⟨(j 1).val, idx2_lt1 j⟩ : Fin 128)

/-- `G` at explicit coordinates. -/
theorem G_apply (q : (⟨3, ![64, 1024, 256]⟩ : Shape).Idx → EReal)
    (Wq : (⟨2, ![128, 256]⟩ : Shape).Idx → EReal) (bq : (⟨1, ![128]⟩ : Shape).Idx → EReal)
    (Wk : (⟨2, ![128, 256]⟩ : Shape).Idx → EReal) (bk : (⟨1, ![128]⟩ : Shape).Idx → EReal)
    (Wv : (⟨2, ![128, 256]⟩ : Shape).Idx → EReal) (bv : (⟨1, ![128]⟩ : Shape).Idx → EReal)
    (b : Fin 64) (d : Fin 128) :
    G q Wq bq Wk bk Wv bv (ix2 b d) = head (fun s x => q (ix3 b s x))
      (fun y x => Wq (ix2 y x)) (fun y => bq (ix1 y))
      (fun y x => Wk (ix2 y x)) (fun y => bk (ix1 y))
      (fun y x => Wv (ix2 y x)) (fun y => bv (ix1 y)) d := rfl

end Cert.AttnSpec

end
-- ==== Proof.KernelArray.lean ====
/-
  The idealized kernel's result array as one function of its seven arguments.

  Grid point `t` writes block `t` of the region's `[64, 1, 128]` result: rows `2t` and `2t + 1`. Row `2t + b` is the body's
  arithmetic on batch element `2t + b` of the first argument, the stacked weights and the bias row, which is the
  specification's `headCat`. The 32 blocks tile the array, so the array ends holding `headCat` of batch element `i 0` at
  feature `i 2` everywhere; the stacked weights and the bias row are the three argument matrices and vectors laid one
  after another, which turns `headCat` into `head`; and the host line after the region drops the unit axis.
-/
import proofs.«170889_j5738076307482_2_alg».proof.Proof.KernelIdealFrame
import proofs.«170889_j5738076307482_2_alg».proof.Proof.AttnSpec
import Idealize.ShloMosaic.Lib.Pipeline.Value
import Idealize.ShloMosaic.Lib.StableHlo.Run
import Idealize.ShloMosaic.Lib.ValueIdx

noncomputable section

namespace Cert.KernelArr

open Cert.KernelIdeal Cert.KernelIdeal.Gen Cert.KernelIdeal.Frame
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-! ## The two arrays the host lines before the region build -/

/-- The stacked weights. -/
theorem V_v0 (c : Dev nD) : (V m c main_v0 : S384x256.Idx → EReal) =
    concatenate S384x256 0 [⟨S128x256, m ((c : Thread nD τ).loc main_arg1)⟩, ⟨S128x256, m ((c : Thread nD τ).loc main_arg3)⟩, ⟨S128x256, m ((c : Thread nD τ).loc main_arg5)⟩] Facts₀.concatenates_S128x256_S128x256_S128x256_S384x256_d0 := by
  show StableHlo.after (List.flatten [hostOps0]) (fun b => m (c, b)) (Proc.devRef .tc main_v0) = _
  simp only [hostOps0, List.flatten_cons, List.flatten_nil, List.append_nil, List.cons_append, List.nil_append]
  after_results
  rfl

/-- The bias row. -/
theorem V_v2 (c : Dev nD) : (V m c main_v2 : S1x384.Idx → EReal) =
    shapeCast S1x384 (concatenate S384 0 [⟨S128, m ((c : Thread nD τ).loc main_arg2)⟩, ⟨S128, m ((c : Thread nD τ).loc main_arg4)⟩, ⟨S128, m ((c : Thread nD τ).loc main_arg6)⟩] Facts₀.concatenates_S128_S128_S128_S384_d0) Facts₀.shapeCasts_S384_S1x384 := by
  show StableHlo.after (List.flatten [hostOps0]) (fun b => m (c, b)) (Proc.devRef .tc main_v2) = _
  simp only [hostOps0, List.flatten_cons, List.flatten_nil, List.append_nil, List.cons_append, List.nil_append]
  after_results
  rfl

/-- Row `o + y` of three `[128, 256]` matrices stacked is row `y` of the matrix whose span holds it. -/
theorem stacked_row (A B C : S128x256.Idx → EReal) (h : Shape.Concatenates [S128x256, S128x256, S128x256] S384x256 0)
    (k : Fin 3) (y : Fin 128) (hy : 128 * k.val + y.val < 384) (x : Fin 256) :
    concatenate S384x256 0 [⟨S128x256, A⟩, ⟨S128x256, B⟩, ⟨S128x256, C⟩] h (ix2 (⟨128 * k.val + y.val, hy⟩ : Fin 384) x)
      = (match k with | ⟨0, _⟩ => A | ⟨1, _⟩ => B | ⟨2, _⟩ => C) (ix2 y x) := by
  match k with
  | ⟨0, _⟩ =>
    refine concatenate_apply_piece (t := S384x256) (0 : Fin 2) [⟨S128x256, A⟩, ⟨S128x256, B⟩, ⟨S128x256, C⟩] h _ 0 (by simp) S128x256 A rfl rfl 0 rfl (ix2 y x) ?_ ?_
    · intro b hb; match b with
      | ⟨0, _⟩ => exact absurd rfl hb
      | ⟨1, _⟩ => rfl
    · show 0 + y.val = 128 * 0 + y.val; omega
  | ⟨1, _⟩ =>
    refine concatenate_apply_piece (t := S384x256) (0 : Fin 2) [⟨S128x256, A⟩, ⟨S128x256, B⟩, ⟨S128x256, C⟩] h _ 1 (by simp) S128x256 B rfl rfl 128 rfl (ix2 y x) ?_ ?_
    · intro b hb; match b with
      | ⟨0, _⟩ => exact absurd rfl hb
      | ⟨1, _⟩ => rfl
    · show 128 + y.val = 128 * 1 + y.val; omega
  | ⟨2, _⟩ =>
    refine concatenate_apply_piece (t := S384x256) (0 : Fin 2) [⟨S128x256, A⟩, ⟨S128x256, B⟩, ⟨S128x256, C⟩] h _ 2 (by simp) S128x256 C rfl rfl 256 rfl (ix2 y x) ?_ ?_
    · intro b hb; match b with
      | ⟨0, _⟩ => exact absurd rfl hb
      | ⟨1, _⟩ => rfl
    · show 256 + y.val = 128 * 2 + y.val; omega

/-- Entry `o + y` of three `[128]` vectors laid end to end is entry `y` of the vector whose span holds it. -/
theorem joined_entry (A B C : S128.Idx → EReal) (h : Shape.Concatenates [S128, S128, S128] S384 0)
    (k : Fin 3) (y : Fin 128) (hy : 128 * k.val + y.val < 384) :
    concatenate S384 0 [⟨S128, A⟩, ⟨S128, B⟩, ⟨S128, C⟩] h (ix1 (⟨128 * k.val + y.val, hy⟩ : Fin 384))
      = (match k with | ⟨0, _⟩ => A | ⟨1, _⟩ => B | ⟨2, _⟩ => C) (ix1 y) := by
  match k with
  | ⟨0, _⟩ =>
    refine concatenate_apply_piece (t := S384) (0 : Fin 1) [⟨S128, A⟩, ⟨S128, B⟩, ⟨S128, C⟩] h _ 0 (by simp) S128 A rfl rfl 0 rfl (ix1 y) ?_ ?_
    · intro b hb; match b with
      | ⟨0, _⟩ => exact absurd rfl hb
    · show 0 + y.val = 128 * 0 + y.val; omega
  | ⟨1, _⟩ =>
    refine concatenate_apply_piece (t := S384) (0 : Fin 1) [⟨S128, A⟩, ⟨S128, B⟩, ⟨S128, C⟩] h _ 1 (by simp) S128 B rfl rfl 128 rfl (ix1 y) ?_ ?_
    · intro b hb; match b with
      | ⟨0, _⟩ => exact absurd rfl hb
    · show 128 + y.val = 128 * 1 + y.val; omega
  | ⟨2, _⟩ =>
    refine concatenate_apply_piece (t := S384) (0 : Fin 1) [⟨S128, A⟩, ⟨S128, B⟩, ⟨S128, C⟩] h _ 2 (by simp) S128 C rfl rfl 256 rfl (ix1 y) ?_ ?_
    · intro b hb; match b with
      | ⟨0, _⟩ => exact absurd rfl hb
    · show 256 + y.val = 128 * 2 + y.val; omega

/-- A `[384]` vector recast as the row `[1, 384]`, read at column `n`. -/
theorem row_of_vector (v : S384.Idx → EReal) (h : S384.ShapeCasts S1x384) (n : Fin 384) :
    shapeCast S1x384 v h (ix2 (0 : Fin 1) n) = v (ix1 n) := by
  refine shapeCast_apply v h _ _ ?_
  rw [Shape.rowMajor_val_one, Shape.rowMajor_val_two]
  show n.val = 0 * 384 + n.val
  omega

/-! ## Where a block's element sits in its array -/

theorem N32 : cfg0.N = 32 := N_0

/-- The four index maps over the grid: the batch windows (the first argument, the result) move two rows per point,
    the stacked weights and the bias row stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0)

/-- Batch element `b` of point `t`'s input block is batch element `2t + b` of the first argument. -/
theorem block_rows (c : Dev nD) (t : Fin cfg0.N) (b : Fin 2) (hb : 2 * t.val + b.val < 64) (s : Fin 1024) (x : Fin 256) :
    (iblk m c 0 t : S2x1024x256.Idx → EReal) (ix3 b s x) = (V m c main_arg0 : S64x1024x256.Idx → EReal) (ix3 (⟨2 * t.val + b.val, hb⟩ : Fin 64) s x) := by
  obtain ⟨e0, e1, e2, -⟩ := idx_facts t
  show (V m c main_arg0 : S64x1024x256.Idx → EReal) (((cfg0.win 0).blk t).view.emb (ix3 b s x)) = _
  refine congrArg _ ?_
  funext a; apply Fin.ext
  match a with
  | ⟨0, _⟩ => show win0_0.index t (0 : Fin 3) * 2 + 1 * b.val = 2 * t.val + b.val; omega
  | ⟨1, _⟩ => show win0_0.index t (1 : Fin 3) * 1024 + 1 * s.val = s.val; omega
  | ⟨2, _⟩ => show win0_0.index t (2 : Fin 3) * 256 + 1 * x.val = x.val; omega

/-- The weights window's block is the whole stacked array at every point. -/
theorem block_weights (c : Dev nD) (t : Fin cfg0.N) (n : Fin 384) (x : Fin 256) :
    (iblk m c 1 t : S384x256.Idx → EReal) (ix2 n x) = (V m c main_v0 : S384x256.Idx → EReal) (ix2 n x) := by
  obtain ⟨-, -, -, e0, e1, -⟩ := idx_facts t
  show (V m c main_v0 : S384x256.Idx → EReal) (((cfg0.win 1).blk t).view.emb (ix2 n x)) = _
  refine congrArg _ ?_
  funext a; apply Fin.ext
  match a with
  | ⟨0, _⟩ => show win0_1.index t (0 : Fin 2) * 384 + 1 * n.val = n.val; omega
  | ⟨1, _⟩ => show win0_1.index t (1 : Fin 2) * 256 + 1 * x.val = x.val; omega

/-- So is the bias window's. -/
theorem block_bias (c : Dev nD) (t : Fin cfg0.N) (n : Fin 384) :
    (iblk m c 2 t : S1x384.Idx → EReal) (ix2 (0 : Fin 1) n) = (V m c main_v2 : S1x384.Idx → EReal) (ix2 (0 : Fin 1) n) := by
  obtain ⟨-, -, -, -, -, e0, e1, -⟩ := idx_facts t
  show (V m c main_v2 : S1x384.Idx → EReal) (((cfg0.win 2).blk t).view.emb (ix2 (0 : Fin 1) n)) = _
  refine congrArg _ ?_
  funext a; apply Fin.ext
  match a with
  | ⟨0, _⟩ => show win0_2.index t (0 : Fin 2) * 1 + 1 * 0 = 0; omega
  | ⟨1, _⟩ => show win0_2.index t (1 : Fin 2) * 384 + 1 * n.val = n.val; omega

/-! ## What a point stores, row by row -/

theorem zeros2 : (![0, 0] : Fin 2 → Nat) = fun _ => 0 := funext fun a => by fin_cases a <;> rfl

/-- The body's arithmetic on one batch element (the first of a point's two), at feature `d`: the specification over the
    stacked weights. -/
abbrev FirstRow : Prop := ∀ (v0 : Vec Ideal S384x256 .f32) (v3 : Vec Ideal S1x384 .f32) (v6 : Vec Ideal S1x1024x256 .f32) (d : Fin 128),
    Cert.KernelIdeal.Gen.k0_pay4 (F := Ideal) v0 v3 v6 (ix3 (0 : Fin 1) (0 : Fin 1) d) = Cert.AttnSpec.headCat (fun s x => v6 (ix3 (0 : Fin 1) s x)) (fun n x => v0 (ix2 n x)) (fun n => v3 (ix2 (0 : Fin 1) n)) d
/-- The same for the second batch element of a point. -/
abbrev SecondRow : Prop := ∀ (v0 : Vec Ideal S384x256 .f32) (v3 : Vec Ideal S1x384 .f32) (v39 : Vec Ideal S1x1024x256 .f32) (d : Fin 128),
    Cert.KernelIdeal.Gen.k0_pay1 (F := Ideal) (Cert.KernelIdeal.Gen.k0_pay2 v0) (Cert.KernelIdeal.Gen.k0_pay3 v3) v39 (ix3 (0 : Fin 1) (0 : Fin 1) d) = Cert.AttnSpec.headCat (fun s x => v39 (ix3 (0 : Fin 1) s x)) (fun n x => v0 (ix2 n x)) (fun n => v3 (ix2 (0 : Fin 1) n)) d

/-- The first stored row, from the three input blocks: batch element 0 of the input block. -/
theorem row0 (hp4 : FirstRow) (x0 : Vec Ideal S2x1024x256 .f32) (x1 : Vec Ideal S384x256 .f32) (x2 : Vec Ideal S1x384 .f32) (d : Fin 128) :
    k0_pay4 (F := Ideal) (View.ld x1 rW) (View.ld x2 rB) (View.ld x0 rQ0) (ix3 (0 : Fin 1) (0 : Fin 1) d)
      = AttnSpec.headCat (fun s x => x0 (ix3 (0 : Fin 2) s x)) (fun n x => x1 (ix2 n x)) (fun n => x2 (ix2 (0 : Fin 1) n)) d := by
  rw [View.ld_unit_zero zeros2, View.ld_unit_zero zeros2]
  refine (hp4 x1 x2 (View.ld x0 rQ0) d).trans ?_
  refine congrArg (fun q => AttnSpec.headCat q (fun n x => x1 (ix2 n x)) (fun n => x2 (ix2 (0 : Fin 1) n)) d) ?_
  funext s x
  show x0 (rQ0.emb (ix3 (0 : Fin 1) s x)) = x0 (ix3 (0 : Fin 2) s x)
  refine congrArg x0 ?_
  funext a; apply Fin.ext
  match a with
  | ⟨0, _⟩ => show 0 + 1 * 0 = 0; omega
  | ⟨1, _⟩ => show 0 + 1 * s.val = s.val; omega
  | ⟨2, _⟩ => show 0 + 1 * x.val = x.val; omega

/-- The second stored row: batch element 1 of the input block. -/
theorem row1 (hp1 : SecondRow) (x0 : Vec Ideal S2x1024x256 .f32) (x1 : Vec Ideal S384x256 .f32) (x2 : Vec Ideal S1x384 .f32) (d : Fin 128) :
    k0_pay1 (F := Ideal) (k0_pay2 (View.ld x1 rW)) (k0_pay3 (View.ld x2 rB)) (View.ld x0 rQ1) (ix3 (0 : Fin 1) (0 : Fin 1) d)
      = AttnSpec.headCat (fun s x => x0 (ix3 (1 : Fin 2) s x)) (fun n x => x1 (ix2 n x)) (fun n => x2 (ix2 (0 : Fin 1) n)) d := by
  rw [View.ld_unit_zero zeros2, View.ld_unit_zero zeros2]
  refine (hp1 x1 x2 (View.ld x0 rQ1) d).trans ?_
  refine congrArg (fun q => AttnSpec.headCat q (fun n x => x1 (ix2 n x)) (fun n => x2 (ix2 (0 : Fin 1) n)) d) ?_
  funext s x
  show x0 (rQ1.emb (ix3 (0 : Fin 1) s x)) = x0 (ix3 (1 : Fin 2) s x)
  refine congrArg x0 ?_
  funext a; apply Fin.ext
  match a with
  | ⟨0, _⟩ => show 1 + 1 * 0 = 1; omega
  | ⟨1, _⟩ => show 0 + 1 * s.val = s.val; omega
  | ⟨2, _⟩ => show 0 + 1 * x.val = x.val; omega

/-! ## The region's result array -/

/-- The region's `[64, 1, 128]` result: at `i`, the specification on batch element `i 0` of the first argument over the
    stacked weights and the bias row as the region finds them, at feature `i 2`. -/
def G3 (c : Dev nD) : S64x1x128.Idx → EReal := fun i =>
  AttnSpec.headCat (fun s x => (V m c main_arg0 : S64x1024x256.Idx → EReal) (ix3 (⟨(i 0).val, (i 0).isLt⟩ : Fin 64) s x))
    (fun n x => (V m c main_v0 : S384x256.Idx → EReal) (ix2 n x))
    (fun n => (V m c main_v2 : S1x384.Idx → EReal) (ix2 (0 : Fin 1) n))
    (⟨(i 2).val, (i 2).isLt⟩ : Fin 128)

/-- `G3` at row `2t + b`, through point `t`'s input blocks. -/
theorem G3_row (c : Dev nD) (t : Fin cfg0.N) (b : Fin 2) (hb : 2 * t.val + b.val < 64) (d : Fin 128)
    (i : S64x1x128.Idx) (h0 : (i 0).val = 2 * t.val + b.val) (h2 : (i 2).val = d.val) :
    G3 m c i = AttnSpec.headCat (fun s x => (iblk m c 0 t : S2x1024x256.Idx → EReal) (ix3 b s x))
      (fun n x => (iblk m c 1 t : S384x256.Idx → EReal) (ix2 n x))
      (fun n => (iblk m c 2 t : S1x384.Idx → EReal) (ix2 (0 : Fin 1) n)) d := by
  have ea : (⟨(i 0).val, (i 0).isLt⟩ : Fin 64) = ⟨2 * t.val + b.val, hb⟩ := Fin.ext h0
  have ed : (⟨(i 2).val, (i 2).isLt⟩ : Fin 128) = d := Fin.ext h2
  have r0 : (fun (s : Fin 1024) (x : Fin 256) => (iblk m c 0 t : S2x1024x256.Idx → EReal) (ix3 b s x))
      = fun s x => (V m c main_arg0 : S64x1024x256.Idx → EReal) (ix3 (⟨2 * t.val + b.val, hb⟩ : Fin 64) s x) :=
    funext fun s => funext fun x => block_rows m c t b hb s x
  have r1 : (fun (n : Fin 384) (x : Fin 256) => (iblk m c 1 t : S384x256.Idx → EReal) (ix2 n x))
      = fun n x => (V m c main_v0 : S384x256.Idx → EReal) (ix2 n x) :=
    funext fun n => funext fun x => block_weights m c t n x
  have r2 : (fun (n : Fin 384) => (iblk m c 2 t : S1x384.Idx → EReal) (ix2 (0 : Fin 1) n))
      = fun n => (V m c main_v2 : S1x384.Idx → EReal) (ix2 (0 : Fin 1) n) :=
    funext fun n => block_bias m c t n
  unfold G3
  rw [ea, ed, r0, r1, r2]

/-- A `[1, 1, 128]` index is `(0, 0, d)`. -/
theorem eq_row_index (x : S1x1x128.Idx) : x = ix3 (0 : Fin 1) (0 : Fin 1) (⟨(x 2).val, (x 2).isLt⟩ : Fin 128) :=
  funext fun a => Fin.ext (by
    match a with
    | ⟨0, _⟩ => have h : (x 0).val < 1 := (x 0).isLt; show (x 0).val = 0; omega
    | ⟨1, _⟩ => have h : (x 1).val < 1 := (x 1).isLt; show (x 1).val = 0; omega
    | ⟨2, _⟩ => rfl)

set_option maxRecDepth 65536 in
/-- The second row point `t` stores is row `2t + 1` of `G3`. -/
theorem stored_row1 (hp1 : SecondRow) (c : Dev nD) (t : Fin cfg0.N) (x : S1x1x128.Idx) :
    k0_pay1 (F := Ideal) (k0_pay2 (View.ld (iblk m c 1 t : Vec Ideal S384x256 .f32) rW)) (k0_pay3 (View.ld (iblk m c 2 t : Vec Ideal S1x384 .f32) rB))
        (View.ld (iblk m c 0 t : Vec Ideal S2x1024x256 .f32) rQ1) x
      = G3 m c (((cfg0.win 3).blk t).view.emb (rO1.emb x)) := by
  have hN := N32
  have ht := t.isLt
  obtain ⟨-, -, -, -, -, -, -, e0, e1, e2⟩ := idx_facts t
  rw [eq_row_index x]
  generalize (⟨(x 2).val, (x 2).isLt⟩ : Fin 128) = d
  refine (row1 hp1 (iblk m c 0 t) (iblk m c 1 t) (iblk m c 2 t) d).trans ?_
  refine (G3_row m c t (1 : Fin 2) (by show 2 * t.val + 1 < 64; omega) d _ ?_ ?_).symm
  · show win0_3.index t (0 : Fin 3) * 2 + 1 * (1 + 1 * 0) = 2 * t.val + 1; omega
  · show win0_3.index t (2 : Fin 3) * 128 + 1 * (0 + 1 * d.val) = d.val; omega

set_option maxRecDepth 65536 in
/-- The first row point `t` stores is row `2t` of `G3`. -/
theorem stored_row0 (hp4 : FirstRow) (c : Dev nD) (t : Fin cfg0.N) (x : S1x1x128.Idx) :
    k0_pay4 (F := Ideal) (View.ld (iblk m c 1 t : Vec Ideal S384x256 .f32) rW) (View.ld (iblk m c 2 t : Vec Ideal S1x384 .f32) rB)
        (View.ld (iblk m c 0 t : Vec Ideal S2x1024x256 .f32) rQ0) x
      = G3 m c (((cfg0.win 3).blk t).view.emb (rO0.emb x)) := by
  have hN := N32
  have ht := t.isLt
  obtain ⟨-, -, -, -, -, -, -, e0, e1, e2⟩ := idx_facts t
  rw [eq_row_index x]
  generalize (⟨(x 2).val, (x 2).isLt⟩ : Fin 128) = d
  refine (row0 hp4 (iblk m c 0 t) (iblk m c 1 t) (iblk m c 2 t) d).trans ?_
  refine (G3_row m c t (0 : Fin 2) (by show 2 * t.val + 0 < 64; omega) d _ ?_ ?_).symm
  · show win0_3.index t (0 : Fin 3) * 2 + 1 * (0 + 1 * 0) = 2 * t.val + 0; omega
  · show win0_3.index t (2 : Fin 3) * 128 + 1 * (0 + 1 * d.val) = d.val; omega

/-- Two rows stored into a `[2, 1, 128]` block, each a row of one function of the block's index, leave that function. -/
theorem canon_two_rows (p1 p0 : Vec Ideal S1x1x128 .f32) (Gb : S2x1x128.Idx → Elt Ideal .f32)
    (h1 : ∀ x : S1x1x128.Idx, p1 x = Gb (rO1.emb x)) (h0 : ∀ x : S1x1x128.Idx, p0 x = Gb (rO0.emb x)) :
    View.canon [(⟨rO1, p1⟩ : View.Piece (Elt Ideal) S2x1x128 .f32), ⟨rO0, p0⟩] = Gb := by
  funext y
  refine View.canon_apply_of_pieces (Val := Elt Ideal) Gb _ ?_ y (cover3 _ _ y)
  intro p hp x
  simp only [List.mem_cons, List.mem_nil_iff, or_false] at hp
  rcases hp with rfl | rfl
  · exact h1 x
  · exact h0 x

/-- What point `t` writes back is block `t` of `G3`: each of its two stored rows is a row of `G3`, and together they
    cover the block. -/
theorem flushed3_eq (hp4 : FirstRow) (hp1 : SecondRow) (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after3]
  unfold out3
  exact canon_two_rows _ _ (fun y => G3 m c (((cfg0.win 3).blk t).view.emb y)) (stored_row1 m hp1 c t) (stored_row0 m hp4 c t)

/-- An index of the result is in point `t`'s block iff each coordinate is in the block's range on its axis. -/
theorem mem_blk3 (t : Fin cfg0.N) (i : S64x1x128.Idx) :
    i ∈ ((cfg0.win 3).blk t).view.set ↔ ∀ a : Fin 3, win0_3.index t a * S2x1x128.size a ≤ (i a).val ∧ (i a).val < win0_3.index t a * S2x1x128.size a + S2x1x128.size a := by
  show i ∈ ((View.whole main_v3).slice (win0_3.rect t)).set ↔ _
  rw [View.set_slice_whole, Rect.mem_set_unit]
  exact Iff.rfl

/-- The 32 blocks tile the result (row `r` is in block `r / 2`), so after the run it is `G3` everywhere. -/
theorem final3 (hp4 : FirstRow) (hp1 : SecondRow) (c : Dev nD) : (dats m 0 c).arrAt 3 cfg0.N = G3 m c :=
  (dats m 0 c).arrAt_eq_of_cover 3 (G3 m c) (fun t _ => flushed3_eq m hp4 hp1 c t) fun i => by
    have h0 : (i 0).val < 64 := (i 0).isLt
    have h1 : (i 1).val < 1 := (i 1).isLt
    have h2 : (i 2).val < 128 := (i 2).isLt
    have hN := N32
    have hlt : (i 0).val / 2 < cfg0.N := by omega
    obtain ⟨-, -, -, -, -, -, -, e0, e1, e2⟩ := idx_facts ⟨(i 0).val / 2, hlt⟩
    have e0' : win0_3.index ⟨(i 0).val / 2, hlt⟩ (0 : Fin 3) = (i 0).val / 2 := e0
    refine ⟨⟨(i 0).val / 2, hlt⟩, flush0_3 _, ?_⟩
    rw [mem_blk3]
    intro a
    match a with
    | ⟨0, _⟩ => show win0_3.index ⟨(i 0).val / 2, hlt⟩ (0 : Fin 3) * 2 ≤ (i 0).val ∧ (i 0).val < win0_3.index ⟨(i 0).val / 2, hlt⟩ (0 : Fin 3) * 2 + 2; omega
    | ⟨1, _⟩ => show win0_3.index ⟨(i 0).val / 2, hlt⟩ (1 : Fin 3) * 1 ≤ (i 1).val ∧ (i 1).val < win0_3.index ⟨(i 0).val / 2, hlt⟩ (1 : Fin 3) * 1 + 1; omega
    | ⟨2, _⟩ => show win0_3.index ⟨(i 0).val / 2, hlt⟩ (2 : Fin 3) * 128 ≤ (i 2).val ∧ (i 2).val < win0_3.index ⟨(i 0).val / 2, hlt⟩ (2 : Fin 3) * 128 + 128; omega

/-! ## The host line after the region -/

/-- A `[64, 1, 128]` array with its unit axis dropped, read at `(b, d)`. -/
theorem drop_unit (v : S64x1x128.Idx → EReal) (h : S64x1x128.ShapeCasts S64x128) (b : Fin 64) (d : Fin 128) :
    shapeCast S64x128 v h (ix2 b d) = v (ix3 b (0 : Fin 1) d) := by
  refine shapeCast_apply v h _ _ ?_
  rw [Shape.rowMajor_val_three, Shape.rowMajor_val_two]
  show (b.val * 1 + 0) * 128 + d.val = b.val * 128 + d.val
  omega

/-- The result buffer after the host line: the region's result with its unit axis dropped. -/
theorem tail_v4 (c : Dev nD) :
    (Pipeline.afterTail₀ cfgs (dats m) 0 (V0 m) [hostOps1] c main_v4 : S64x128.Idx → EReal)
      = shapeCast S64x128 ((dats m 0 c).arrAt 3 cfg0.N : S64x1x128.Idx → EReal) Facts₀.shapeCasts_S64x1x128_S64x128 := by
  have e : Pipeline.withArrays (cfgs 0).spec c (V0 m c) (fun w => (dats m 0 c).arrAt w (cfgs 0).N) (Proc.devRef .tc main_v3)
      = (dats m 0 c).arrAt 3 cfg0.N :=
    Pipeline.withArrays_arr (cfgs 0).spec launch0.win.arr_inj c (V0 m c) (fun w => (dats m 0 c).arrAt w (cfgs 0).N) 3
  unfold Pipeline.afterTail₀
  show StableHlo.after (List.flatten [hostOps1]) _ (Proc.devRef .tc main_v4) = _
  simp only [hostOps1, List.flatten_cons, List.flatten_nil, List.append_nil, List.cons_append, List.nil_append]
  after_results
  rw [e]
  rfl

/-! ## The stacked weights and the bias row are the argument arrays laid one after another -/

theorem stacked0 (A B C : S128x256.Idx → EReal) (h : Shape.Concatenates [S128x256, S128x256, S128x256] S384x256 0)
    (y : Fin 128) (hy : 0 + y.val < 384) (x : Fin 256) :
    concatenate S384x256 0 [⟨S128x256, A⟩, ⟨S128x256, B⟩, ⟨S128x256, C⟩] h (ix2 (⟨0 + y.val, hy⟩ : Fin 384) x) = A (ix2 y x) :=
  (congrArg (fun n : Fin 384 => concatenate S384x256 0 [⟨S128x256, A⟩, ⟨S128x256, B⟩, ⟨S128x256, C⟩] h (ix2 n x))
    (Fin.ext (by show 0 + y.val = 128 * 0 + y.val; omega))).trans (stacked_row A B C h 0 y (by show 128 * 0 + y.val < 384; omega) x)
theorem stacked1 (A B C : S128x256.Idx → EReal) (h : Shape.Concatenates [S128x256, S128x256, S128x256] S384x256 0)
    (y : Fin 128) (hy : 128 + y.val < 384) (x : Fin 256) :
    concatenate S384x256 0 [⟨S128x256, A⟩, ⟨S128x256, B⟩, ⟨S128x256, C⟩] h (ix2 (⟨128 + y.val, hy⟩ : Fin 384) x) = B (ix2 y x) :=
  (congrArg (fun n : Fin 384 => concatenate S384x256 0 [⟨S128x256, A⟩, ⟨S128x256, B⟩, ⟨S128x256, C⟩] h (ix2 n x))
    (Fin.ext (by show 128 + y.val = 128 * 1 + y.val; omega))).trans (stacked_row A B C h 1 y (by show 128 * 1 + y.val < 384; omega) x)
theorem stacked2 (A B C : S128x256.Idx → EReal) (h : Shape.Concatenates [S128x256, S128x256, S128x256] S384x256 0)
    (y : Fin 128) (hy : 256 + y.val < 384) (x : Fin 256) :
    concatenate S384x256 0 [⟨S128x256, A⟩, ⟨S128x256, B⟩, ⟨S128x256, C⟩] h (ix2 (⟨256 + y.val, hy⟩ : Fin 384) x) = C (ix2 y x) :=
  (congrArg (fun n : Fin 384 => concatenate S384x256 0 [⟨S128x256, A⟩, ⟨S128x256, B⟩, ⟨S128x256, C⟩] h (ix2 n x))
    (Fin.ext (by show 256 + y.val = 128 * 2 + y.val; omega))).trans (stacked_row A B C h 2 y (by show 128 * 2 + y.val < 384; omega) x)

theorem joined0 (A B C : S128.Idx → EReal) (h : Shape.Concatenates [S128, S128, S128] S384 0) (y : Fin 128) (hy : 0 + y.val < 384) :
    concatenate S384 0 [⟨S128, A⟩, ⟨S128, B⟩, ⟨S128, C⟩] h (ix1 (⟨0 + y.val, hy⟩ : Fin 384)) = A (ix1 y) :=
  (congrArg (fun n : Fin 384 => concatenate S384 0 [⟨S128, A⟩, ⟨S128, B⟩, ⟨S128, C⟩] h (ix1 n))
    (Fin.ext (by show 0 + y.val = 128 * 0 + y.val; omega))).trans (joined_entry A B C h 0 y (by show 128 * 0 + y.val < 384; omega))
theorem joined1 (A B C : S128.Idx → EReal) (h : Shape.Concatenates [S128, S128, S128] S384 0) (y : Fin 128) (hy : 128 + y.val < 384) :
    concatenate S384 0 [⟨S128, A⟩, ⟨S128, B⟩, ⟨S128, C⟩] h (ix1 (⟨128 + y.val, hy⟩ : Fin 384)) = B (ix1 y) :=
  (congrArg (fun n : Fin 384 => concatenate S384 0 [⟨S128, A⟩, ⟨S128, B⟩, ⟨S128, C⟩] h (ix1 n))
    (Fin.ext (by show 128 + y.val = 128 * 1 + y.val; omega))).trans (joined_entry A B C h 1 y (by show 128 * 1 + y.val < 384; omega))
theorem joined2 (A B C : S128.Idx → EReal) (h : Shape.Concatenates [S128, S128, S128] S384 0) (y : Fin 128) (hy : 256 + y.val < 384) :
    concatenate S384 0 [⟨S128, A⟩, ⟨S128, B⟩, ⟨S128, C⟩] h (ix1 (⟨256 + y.val, hy⟩ : Fin 384)) = C (ix1 y) :=
  (congrArg (fun n : Fin 384 => concatenate S384 0 [⟨S128, A⟩, ⟨S128, B⟩, ⟨S128, C⟩] h (ix1 n))
    (Fin.ext (by show 256 + y.val = 128 * 2 + y.val; omega))).trans (joined_entry A B C h 2 y (by show 128 * 2 + y.val < 384; omega))

/-! ## The result array is the specification of the arguments -/

/-- `G3` at row `b`, feature `d`, in the argument arrays: the specification from separate weights. -/
theorem G3_args (c : Dev nD) (b : Fin 64) (d : Fin 128) :
    G3 m c (ix3 b (0 : Fin 1) d) = AttnSpec.G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (ix2 b d) := by
  rw [AttnSpec.G_apply]
  unfold G3
  rw [V_v0, V_v2, V_main_arg0]
  refine AttnSpec.headCat_eq_head _ _ _ _ _ _ _ _ _ ?_ ?_ ?_ ?_ ?_ ?_ d
  · intro y h x; exact stacked0 _ _ _ _ y h x
  · intro y h x; exact stacked1 _ _ _ _ y h x
  · intro y h x; exact stacked2 _ _ _ _ y h x
  · intro y h; exact (row_of_vector _ _ _).trans (joined0 _ _ _ _ y h)
  · intro y h; exact (row_of_vector _ _ _).trans (joined1 _ _ _ _ y h)
  · intro y h; exact (row_of_vector _ _ _).trans (joined2 _ _ _ _ y h)

/-- After the host line the result buffer holds the specification of the seven arguments. -/
theorem result_eq (hp4 : FirstRow) (hp1 : SecondRow) (c : Dev nD) :
    (Pipeline.afterTail₀ cfgs (dats m) 0 (V0 m) [hostOps1] c main_v4 : S64x128.Idx → EReal)
      = AttnSpec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  rw [tail_v4, final3 m hp4 hp1 c]
  funext j
  obtain ⟨b, d, rfl⟩ : ∃ (b : Fin 64) (d : Fin 128), j = ix2 b d :=
    ⟨⟨(j 0).val, idx2_lt0 j⟩, ⟨(j 1).val, idx2_lt1 j⟩, eq_ix2 j⟩
  rw [drop_unit]
  exact G3_args m c b d

/-! ## The run -/

/-- Every weakly fair execution of the idealized kernel's @main terminates with the result buffer at the specification of
    the seven arguments, and the arguments as launched. -/
theorem run (hp4 : FirstRow) (hp1 : SecondRow) :
    θ_run defs (onTc (τ := τ) (main (F := Ideal))) ⟨m, fun _ => 0, ρ⟩ fun r => ∀ c : Dev nD,
      r.2.mem ((c : Thread nD τ).loc main_v4) = AttnSpec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨((h c).2 main_v4 (Pipeline.mem_restRefs_of main_v4 (by decide) (by decide))).trans (result_eq m hp4 hp1 c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelArr

end
-- ==== Proof.LibMatmulRowsByRows.lean ====
/-
  A matrix product whose two operands are both contracted over their LAST axis, read at an entry.

  A kernel that keeps a weight matrix in its natural [outputs, inputs] layout multiplies an [n, K] block by a
  [d, K] block "row against row": out[r, c] = Σ_k lhs[r, k] · rhs[c, k].  Into the zero accumulator, at the exact
  instance, that sum is all there is.
-/
import Idealize.ShloMosaic.PureOps.Ideal.Laws
import Idealize.ShloMosaic.Lib.ValueIdx

noncomputable section

namespace Cert.Lib.MatmulRowsByRows

open Idealize.ShloMosaic Idealize.ShloMosaic.ValueIdx

/-- A matrix product of an [n, K] operand with a [d, K] operand, both contracted over their last axis, into the
    zero accumulator, read at entry (r, c): the sum over the contracted axis of row r of the left operand times
    row c of the right.  The four hypotheses name the coordinates of the operands' indices at an output index and
    a contraction index (for a printed dimension record: two by unfolding the index maps on the free axes, two
    by the library's lhsIdx_val_of_single / rhsIdx_val_of_single on the contracted ones). -/
theorem matmul_zero_at {n K d : Nat} {φ₁ φ₂ : FTy}
    (D : DotDims ⟨2, ![n, K]⟩ ⟨2, ![d, K]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (j 1).val)
    (hr1 : ∀ j q, (D.rhsIdx j q 1).val = (q ⟨0, by omega⟩).val)
    (prec : Option ContractPrecision)
    (lhs : FVec Ideal ⟨2, ![n, K]⟩ φ₁) (rhs : FVec Ideal ⟨2, ![d, K]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 c k := funext fun a => Fin.ext (by
    match a with
    | ⟨0, _⟩ => exact hr0 _ _
    | ⟨1, _⟩ => exact (hr1 _ _).trans hk)
  rw [el, er]

end Cert.Lib.MatmulRowsByRows

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.PayloadIsSpec.lean ====
/-
  The kernel body's arithmetic, read against the specification.

  For one batch element the body computes, from the stacked weight block, the stacked bias row and the element's
  rows: the three affine projections side by side (one contraction against the stacked weights, plus the bias on
  every row), cuts them into queries, keys and values, forms the scaled scores, takes a softmax DOWN each column
  (maximum, shifted exponential, sum, quotient), mixes the value rows with the weights and pools the mixture by
  its maximum over the query rows. At the exact instance every rounding step is the identity, every contraction is
  a finite sum and every reduction a fold, so the stored block at feature d is the specification's head on the
  stacked weights. Each stage is named as one vector, read at an entry by its own lemma, and the payloads are
  shown to be the chain of the stages by unfolding.
-/
import proofs.«170889_j5738076307482_2_alg».proof.Proof.Gen.KernelIdeal.Skeleton
import proofs.«170889_j5738076307482_2_alg».proof.Proof.AttnSpec
import proofs.«170889_j5738076307482_2_alg».proof.Proof.LibMatmulRowsByRows
import proofs.«170889_j5738076307482_2_alg».proof.Proof.LibSplitContraction
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelSide

open Cert.KernelIdeal Cert.KernelIdeal.Facts₀ Idealize.ShloMosaic Idealize.ShloMosaic.ValueIdx
open Cert.AttnSpec

/-- The named scale factor is the rational the specification multiplies scores by. -/
theorem named_scale : Named.named (F := Ideal) Cert.KernelIdeal.κ "inv_scale" (φ := .f32) 0x3DB504F3#32 = Cert.AttnSpec.scale :=
  IdealRules.named_const.ideal_named_scalar _ _ _ _ rfl

/-! ## The three contractions read at an entry -/

/-- Rows [1024, 256] against the stacked weights [384, 256], both contracted over the last axis. -/
theorem dotP_at (lhs : FVec Ideal S1024x256 .bf16) (rhs : FVec Ideal S384x256 .bf16) (s : Fin 1024) (n : Fin 384) :
    matmul dot_S1024x256_S384x256_S1024x384_1_1_0_0_n_n none lhs rhs (constant (F := Ideal) S1024x384 .f32 0x00000000#32) (ix2 s n)
      = ∑ x : Fin 256, lhs (ix2 s x) * rhs (ix2 n x) :=
  Cert.Lib.MatmulRowsByRows.matmul_zero_at dot_S1024x256_S384x256_S1024x384_1_1_0_0_n_n rfl rfl
    (fun j q => by
      unfold DotDims.lhsIdx
      rw [dif_neg (show ¬(0 : Fin S1024x256.rank) ∈ dot_S1024x256_S384x256_S1024x384_1_1_0_0_n_n.lhsBatch by decide),
        dif_pos (show (0 : Fin S1024x256.rank) ∈ dot_S1024x256_S384x256_S1024x384_1_1_0_0_n_n.lhsNonContracting by decide)]
      rfl)
    (fun j q => dot_S1024x256_S384x256_S1024x384_1_1_0_0_n_n.lhsIdx_val_of_single rfl j q)
    (fun j q => by
      unfold DotDims.rhsIdx
      rw [dif_neg (show ¬(0 : Fin S384x256.rank) ∈ dot_S1024x256_S384x256_S1024x384_1_1_0_0_n_n.rhsBatch by decide),
        dif_pos (show (0 : Fin S384x256.rank) ∈ dot_S1024x256_S384x256_S1024x384_1_1_0_0_n_n.rhsNonContracting by decide)]
      rfl)
    (fun j q => dot_S1024x256_S384x256_S1024x384_1_1_0_0_n_n.rhsIdx_val_of_single rfl j q)
    none lhs rhs s n

/-- Queries [1024, 128] against keys [1024, 128], both contracted over the last axis. -/
theorem dotS_at (lhs rhs : FVec Ideal S1024x128 .bf16) (i k : Fin 1024) :
    matmul dot_S1024x128_S1024x128_S1024x1024_1_1_0_0_n_n none lhs rhs (constant (F := Ideal) S1024x1024 .f32 0x00000000#32) (ix2 i k)
      = ∑ d : Fin 128, lhs (ix2 i d) * rhs (ix2 k d) :=
  Cert.Lib.MatmulRowsByRows.matmul_zero_at dot_S1024x128_S1024x128_S1024x1024_1_1_0_0_n_n rfl rfl
    (fun j q => by
      unfold DotDims.lhsIdx
      rw [dif_neg (show ¬(0 : Fin S1024x128.rank) ∈ dot_S1024x128_S1024x128_S1024x1024_1_1_0_0_n_n.lhsBatch by decide),
        dif_pos (show (0 : Fin S1024x128.rank) ∈ dot_S1024x128_S1024x128_S1024x1024_1_1_0_0_n_n.lhsNonContracting by decide)]
      rfl)
    (fun j q => dot_S1024x128_S1024x128_S1024x1024_1_1_0_0_n_n.lhsIdx_val_of_single rfl j q)
    (fun j q => by
      unfold DotDims.rhsIdx
      rw [dif_neg (show ¬(0 : Fin S1024x128.rank) ∈ dot_S1024x128_S1024x128_S1024x1024_1_1_0_0_n_n.rhsBatch by decide),
        dif_pos (show (0 : Fin S1024x128.rank) ∈ dot_S1024x128_S1024x128_S1024x1024_1_1_0_0_n_n.rhsNonContracting by decide)]
      rfl)
    (fun j q => dot_S1024x128_S1024x128_S1024x1024_1_1_0_0_n_n.rhsIdx_val_of_single rfl j q)
    none lhs rhs i k

/-- Weights [1024, 1024] times values [1024, 128], a plain matrix product. -/
theorem dotO_at (lhs : FVec Ideal S1024x1024 .bf16) (rhs : FVec Ideal S1024x128 .bf16) (i : Fin 1024) (d : Fin 128) :
    matmul dot_S1024x1024_S1024x128_S1024x128_1_0_0_1_n_n none lhs rhs (constant (F := Ideal) S1024x128 .f32 0x00000000#32) (ix2 i d)
      = ∑ k : Fin 1024, lhs (ix2 i k) * rhs (ix2 k d) :=
  Cert.Lib.SplitContraction.matmul_zero_at dot_S1024x1024_S1024x128_S1024x128_1_0_0_1_n_n rfl rfl
    (fun j q => by
      unfold DotDims.lhsIdx
      rw [dif_neg (show ¬(0 : Fin S1024x1024.rank) ∈ dot_S1024x1024_S1024x128_S1024x128_1_0_0_1_n_n.lhsBatch by decide),
        dif_pos (show (0 : Fin S1024x1024.rank) ∈ dot_S1024x1024_S1024x128_S1024x128_1_0_0_1_n_n.lhsNonContracting by decide)]
      rfl)
    (fun j q => dot_S1024x1024_S1024x128_S1024x128_1_0_0_1_n_n.lhsIdx_val_of_single rfl j q)
    (fun j q => dot_S1024x1024_S1024x128_S1024x128_1_0_0_1_n_n.rhsIdx_val_of_single rfl j q)
    (fun j q => by
      unfold DotDims.rhsIdx
      rw [dif_neg (show ¬(1 : Fin S1024x128.rank) ∈ dot_S1024x1024_S1024x128_S1024x128_1_0_0_1_n_n.rhsBatch by decide),
        dif_pos (show (1 : Fin S1024x128.rank) ∈ dot_S1024x1024_S1024x128_S1024x128_1_0_0_1_n_n.rhsNonContracting by decide)]
      rfl)
    none lhs rhs i d

/-! ## The payload's stages, one vector each -/

section Stages
variable (Wb : FVec Ideal S384x256 .bf16) (brow : FVec Ideal S1x384 .f32) (rows : Vec Ideal S1x1024x256 .f32)

/-- All three projections side by side: the rows against the stacked weights, plus the bias row on every row. -/
def kP : FVec Ideal S1024x384 .f32 :=
  addf (matmul dot_S1024x256_S384x256_S1024x384_1_1_0_0_n_n none
      (truncf .bf16 (shapeCast S1024x256 rows shapeCasts_S1x1024x256_S1024x256 : FVec Ideal S1024x256 .f32) bitsLt_bf16_f32) Wb
      (constant S1024x384 .f32 0x00000000#32))
    (broadcastTo S1024x384 brow broadcasts_S1x384_S1024x384)

/-- Queries: columns 0..127 of the projections. -/
def kQ : FVec Ideal S1024x128 .bf16 :=
  truncf .bf16 (extractStridedSlice S1024x128 ![0, 0] (kP Wb brow rows) slices_S1024x384_o0_0_S1024x128 : FVec Ideal S1024x128 .f32) bitsLt_bf16_f32
/-- Keys: columns 128..255. -/
def kK : FVec Ideal S1024x128 .bf16 :=
  truncf .bf16 (extractStridedSlice S1024x128 ![0, 128] (kP Wb brow rows) slices_S1024x384_o0_128_S1024x128 : FVec Ideal S1024x128 .f32) bitsLt_bf16_f32
/-- Values: columns 256..383. -/
def kV : FVec Ideal S1024x128 .bf16 :=
  truncf .bf16 (extractStridedSlice S1024x128 ![0, 256] (kP Wb brow rows) slices_S1024x384_o0_256_S1024x128 : FVec Ideal S1024x128 .f32) bitsLt_bf16_f32

/-- Scaled scores. -/
def kS : FVec Ideal S1024x1024 .f32 :=
  mulf (matmul dot_S1024x128_S1024x128_S1024x1024_1_1_0_0_n_n none (kQ Wb brow rows) (kK Wb brow rows)
      (constant S1024x1024 .f32 0x00000000#32))
    (broadcast S1024x1024 (Named.named κ "inv_scale" 0x3DB504F3#32 : Ideal .f32))

/-- Column maxima of the scores. -/
def kM : FVec Ideal S1024 .f32 :=
  multiReduction .maximumf [0] S1024 (kS Wb brow rows) 0xFF800000#32 reduces_S1024x1024_S1024 (.inl rfl) rfl

/-- Shifted exponentials. -/
def kE : FVec Ideal S1024x1024 .f32 :=
  exp (subf (kS Wb brow rows)
    (broadcastTo S1024x1024 (shapeCast S1x1024 (kM Wb brow rows) shapeCasts_S1024_S1x1024 : FVec Ideal S1x1024 .f32) broadcasts_S1x1024_S1024x1024))

/-- Column sums of the exponentials. -/
def kZ : FVec Ideal S1024 .f32 :=
  multiReduction .add [0] S1024 (kE Wb brow rows) 0x00000000#32 reduces_S1024x1024_S1024 (.inl rfl) rfl

/-- Softmax weights. -/
def kA : FVec Ideal S1024x1024 .bf16 :=
  truncf .bf16 (divf (kE Wb brow rows)
    (broadcastTo S1024x1024 (shapeCast S1x1024 (kZ Wb brow rows) shapeCasts_S1024_S1x1024 : FVec Ideal S1x1024 .f32) broadcasts_S1x1024_S1024x1024)) bitsLt_bf16_f32

/-- The weighted mixture of the value rows. -/
def kO : FVec Ideal S1024x128 .f32 :=
  matmul dot_S1024x1024_S1024x128_S1024x128_1_0_0_1_n_n none (kA Wb brow rows) (kV Wb brow rows) (constant S1024x128 .f32 0x00000000#32)

/-- The mixture's maximum over the query rows. -/
def kR : FVec Ideal S128 .f32 :=
  multiReduction .maximumf [0] S128 (kO Wb brow rows) 0xFF800000#32 reduces_S1024x128_S128 (.inl rfl) rfl

/-- The stored block. -/
def kOut : FVec Ideal S1x1x128 .f32 :=
  shapeCast S1x1x128 (shapeCast S1x128 (kR Wb brow rows) shapeCasts_S128_S1x128 : FVec Ideal S1x128 .f32) shapeCasts_S1x128_S1x1x128

/-- The second batch element's payload is the chain of these stages. -/
theorem pay1_eq : Gen.k0_pay1 (F := Ideal) Wb brow rows = kOut Wb brow rows := rfl

end Stages

/-- The first batch element's payload is the same chain, on the weights and bias it casts itself. -/
theorem pay4_eq (v0 : Vec Ideal S384x256 .f32) (v3 : Vec Ideal S1x384 .f32) (v6 : Vec Ideal S1x1024x256 .f32) :
    Gen.k0_pay4 (F := Ideal) v0 v3 v6 = kOut (Gen.k0_pay2 v0) (Gen.k0_pay3 v3) v6 := rfl

/-! ## Reductions down a column, read at an entry -/

/-- The exponential of a vector, read at an index. -/
theorem exp_at {s : Shape} (X : FVec Ideal s .f32) (i : s.Idx) : exp X i = Ideal.exp (X i) := rfl

/-- The maximum over the rows of a [1024, 1024] block, started from −∞, at column k. -/
theorem colmax_at (X : FVec Ideal S1024x1024 .f32) (h : S1024x1024.Reduces [0] S1024) (hφ : FKind.Formats .f32)
    (hacc : (0xFF800000#32 : BitVec 32) = FKind.maximumf.neutral .f32 hφ) (k : Fin 1024) :
    multiReduction .maximumf [0] S1024 X 0xFF800000#32 h hφ hacc (ix1 k)
      = (Finset.univ : Finset (Fin 1024)).fold max ninf (fun i => X (ix2 i k)) := by
  refine (Ideal.multiReduction_maximumf_single X _ h hφ hacc (ix1 k)).trans ?_
  refine congrArg (fun f : Fin 1024 → EReal => (Finset.univ : Finset (Fin 1024)).fold max ninf f) (funext fun i => congrArg X ?_)
  funext a
  match a with
  | ⟨0, _⟩ => rfl
  | ⟨1, _⟩ => rfl

/-- The sum over the rows of a [1024, 1024] block, started from 0, at column k. -/
theorem colsum_at (X : FVec Ideal S1024x1024 .f32) (h : S1024x1024.Reduces [0] S1024) (hφ : FKind.Formats .f32)
    (hacc : (0x00000000#32 : BitVec 32) = FKind.add.neutral .f32 hφ) (k : Fin 1024) :
    multiReduction .add [0] S1024 X 0x00000000#32 h hφ hacc (ix1 k) = ∑ i : Fin 1024, X (ix2 i k) := by
  refine (Ideal.multiReduction_add_single X _ h hφ hacc (ix1 k)).trans ?_
  refine Finset.sum_congr rfl fun i _ => congrArg X ?_
  funext a
  match a with
  | ⟨0, _⟩ => rfl
  | ⟨1, _⟩ => rfl

/-- The maximum over the rows of a [1024, 128] block, started from −∞, at column d. -/
theorem rowmax_at (X : FVec Ideal S1024x128 .f32) (h : S1024x128.Reduces [0] S128) (hφ : FKind.Formats .f32)
    (hacc : (0xFF800000#32 : BitVec 32) = FKind.maximumf.neutral .f32 hφ) (d : Fin 128) :
    multiReduction .maximumf [0] S128 X 0xFF800000#32 h hφ hacc (ix1 d)
      = (Finset.univ : Finset (Fin 1024)).fold max ninf (fun i => X (ix2 i d)) := by
  refine (Ideal.multiReduction_maximumf_single X _ h hφ hacc (ix1 d)).trans ?_
  refine congrArg (fun f : Fin 1024 → EReal => (Finset.univ : Finset (Fin 1024)).fold max ninf f) (funext fun i => congrArg X ?_)
  funext a
  match a with
  | ⟨0, _⟩ => rfl
  | ⟨1, _⟩ => rfl

/-! ## Each stage read at an entry, against the specification -/

section Reads
variable (Wb : FVec Ideal S384x256 .bf16) (brow : FVec Ideal S1x384 .f32) (rows : Vec Ideal S1x1024x256 .f32)

/-- The projections at row s, stacked column n. -/
theorem kP_at (s : Fin 1024) (n : Fin 384) :
    kP Wb brow rows (ix2 s n) = (∑ x : Fin 256, rows (ix3 (0 : Fin 1) s x) * Wb (ix2 n x)) + brow (ix2 (0 : Fin 1) n) := by
  unfold kP
  refine (addf_apply _ _ _).trans ?_
  refine congrArg₂ (· + ·) ?_ ?_
  · refine (dotP_at _ _ s n).trans ?_
    refine Finset.sum_congr rfl fun x _ => ?_
    refine congrArg (· * Wb (ix2 n x)) ?_
    refine (truncf_apply (φ := .f32) (ψ := .bf16) _ _ _).trans ?_
    exact shapeCast_1ab_ab_apply rows _ s x
  · exact broadcastTo_1b_ab_apply brow _ s n

/-- A block of 128 columns of the projections starting at column o is the specification's projection from the
    stacked weights at offset o. -/
theorem slice_at (o : Nat) (ho : o + 128 ≤ 384) (h : S1024x384.Slices ![0, o] S1024x128) (hb : FTy.bf16.bits < FTy.f32.bits)
    (s : Fin 1024) (y : Fin 128) :
    truncf .bf16 (extractStridedSlice S1024x128 ![0, o] (kP Wb brow rows) h : FVec Ideal S1024x128 .f32) hb (ix2 s y)
      = projCat (fun s x => rows (ix3 (0 : Fin 1) s x)) (fun n x => Wb (ix2 n x)) (fun n => brow (ix2 (0 : Fin 1) n)) o ho s y := by
  refine (truncf_apply (φ := .f32) (ψ := .bf16) _ _ _).trans ?_
  refine (slice2_axis1_apply o (kP Wb brow rows) h s y ⟨o + y.val, by omega⟩ rfl).trans ?_
  exact kP_at Wb brow rows s _

theorem kQ_fun : (fun i d => kQ Wb brow rows (ix2 i d))
    = projCat (fun s x => rows (ix3 (0 : Fin 1) s x)) (fun n x => Wb (ix2 n x)) (fun n => brow (ix2 (0 : Fin 1) n)) 0 (by omega) :=
  funext fun i => funext fun d => slice_at Wb brow rows 0 (by omega) _ _ i d
theorem kK_fun : (fun i d => kK Wb brow rows (ix2 i d))
    = projCat (fun s x => rows (ix3 (0 : Fin 1) s x)) (fun n x => Wb (ix2 n x)) (fun n => brow (ix2 (0 : Fin 1) n)) 128 (by omega) :=
  funext fun i => funext fun d => slice_at Wb brow rows 128 (by omega) _ _ i d
theorem kV_fun : (fun i d => kV Wb brow rows (ix2 i d))
    = projCat (fun s x => rows (ix3 (0 : Fin 1) s x)) (fun n x => Wb (ix2 n x)) (fun n => brow (ix2 (0 : Fin 1) n)) 256 (by omega) :=
  funext fun i => funext fun d => slice_at Wb brow rows 256 (by omega) _ _ i d

/-- Scores: the contraction over the 128 features, times the named scale. -/
theorem kS_at (i k : Fin 1024) :
    kS Wb brow rows (ix2 i k)
      = score (fun i d => kQ Wb brow rows (ix2 i d)) (fun i d => kK Wb brow rows (ix2 i d)) i k := by
  unfold kS score
  refine (mulf_apply _ _ _).trans ?_
  exact congrArg₂ (· * ·) (dotS_at _ _ i k) named_scale

/-- Column maxima. -/
theorem kM_at (k : Fin 1024) :
    kM Wb brow rows (ix1 k) = colMax (fun i k => kS Wb brow rows (ix2 i k)) k := by
  unfold kM colMax
  exact colmax_at _ _ _ _ k

/-- A [1024] vector laid out as one row and repeated on all 1024 rows reads its entry k in column k. -/
theorem rowcast_at (v : FVec Ideal S1024 .f32) (h1 : S1024.ShapeCasts S1x1024) (h2 : S1x1024.Broadcasts S1024x1024) (i k : Fin 1024) :
    broadcastTo S1024x1024 (shapeCast S1x1024 v h1 : FVec Ideal S1x1024 .f32) h2 (ix2 i k) = v (ix1 k) :=
  (broadcastTo_1b_ab_apply _ h2 i k).trans (shapeCast_a_1a_apply v h1 0 k)

/-- Shifted exponentials. -/
theorem kE_at (i k : Fin 1024) :
    kE Wb brow rows (ix2 i k) = expo (fun i k => kS Wb brow rows (ix2 i k)) i k := by
  unfold kE expo
  refine (exp_at _ _).trans (congrArg Ideal.exp ?_)
  refine (subf_apply _ _ _).trans ?_
  refine congrArg (kS Wb brow rows (ix2 i k) - ·) ?_
  exact (rowcast_at _ _ _ i k).trans (kM_at Wb brow rows k)

/-- Column sums of the exponentials. -/
theorem kZ_at (k : Fin 1024) :
    kZ Wb brow rows (ix1 k) = colSum (fun i k => kS Wb brow rows (ix2 i k)) k := by
  unfold kZ colSum
  refine (colsum_at _ _ _ _ k).trans ?_
  exact Finset.sum_congr rfl fun i _ => kE_at Wb brow rows i k

/-- Softmax weights. -/
theorem kA_at (i k : Fin 1024) :
    kA Wb brow rows (ix2 i k) = weight (fun i k => kS Wb brow rows (ix2 i k)) i k := by
  unfold kA weight
  refine (truncf_apply (φ := .f32) (ψ := .bf16) _ _ _).trans ?_
  refine (divf_apply _ _ _).trans ?_
  exact congrArg₂ Ideal.div (kE_at Wb brow rows i k) ((rowcast_at _ _ _ i k).trans (kZ_at Wb brow rows k))

/-- The mixture. -/
theorem kO_at (i : Fin 1024) (d : Fin 128) :
    kO Wb brow rows (ix2 i d)
      = mix (fun i k => kS Wb brow rows (ix2 i k)) (fun k d => kV Wb brow rows (ix2 k d)) i d := by
  unfold kO mix
  refine (dotO_at _ _ i d).trans ?_
  exact Finset.sum_congr rfl fun k _ => congrArg (· * kV Wb brow rows (ix2 k d)) (kA_at Wb brow rows i k)

/-- The pooled mixture. -/
theorem kR_at (d : Fin 128) :
    kR Wb brow rows (ix1 d)
      = pooled (fun i k => kS Wb brow rows (ix2 i k)) (fun k d => kV Wb brow rows (ix2 k d)) d := by
  unfold kR pooled
  refine (rowmax_at _ _ _ _ d).trans ?_
  exact congrArg (fun f : Fin 1024 → EReal => (Finset.univ : Finset (Fin 1024)).fold max ninf f)
    (funext fun i => kO_at Wb brow rows i d)

/-- The stored block at feature d. -/
theorem kOut_at (d : Fin 128) :
    kOut Wb brow rows (ix3 (0 : Fin 1) (0 : Fin 1) d)
      = pooled (fun i k => kS Wb brow rows (ix2 i k)) (fun k d => kV Wb brow rows (ix2 k d)) d := by
  unfold kOut
  refine (shapeCast_ab_1ab_apply _ _ 0 0 d).trans ?_
  refine (shapeCast_a_1a_apply _ _ 0 d).trans ?_
  exact kR_at Wb brow rows d

/-- The whole chain, from the first contraction to the stored block, is the specification's head on the stacked weights. -/
theorem core (d : Fin 128) :
    kOut Wb brow rows (ix3 (0 : Fin 1) (0 : Fin 1) d)
      = headCat (fun s x => rows (ix3 (0 : Fin 1) s x)) (fun n x => Wb (ix2 n x)) (fun n => brow (ix2 (0 : Fin 1) n)) d := by
  refine (kOut_at Wb brow rows d).trans ?_
  unfold headCat
  have hS : (fun i k => kS Wb brow rows (ix2 i k))
      = score (fun i d => kQ Wb brow rows (ix2 i d)) (fun i d => kK Wb brow rows (ix2 i d)) :=
    funext fun i => funext fun k => kS_at Wb brow rows i k
  rw [hS, kQ_fun, kK_fun, kV_fun]

end Reads

/-! ## The two payloads -/

/-- The casts the body applies to the weight block change no entry. -/
theorem pay2_at (v0 : Vec Ideal S384x256 .f32) (n : Fin 384) (x : Fin 256) : Gen.k0_pay2 (F := Ideal) v0 (ix2 n x) = v0 (ix2 n x) := by
  unfold Gen.k0_pay2
  refine (truncf_apply (φ := .f32) (ψ := .bf16) _ _ _).trans ?_
  exact shapeCast_apply v0 _ _ _ rfl

/-- The cast the body applies to the bias row changes no entry. -/
theorem pay3_at (v3 : Vec Ideal S1x384 .f32) (n : Fin 384) : Gen.k0_pay3 (F := Ideal) v3 (ix2 (0 : Fin 1) n) = v3 (ix2 (0 : Fin 1) n) := by
  unfold Gen.k0_pay3
  exact shapeCast_apply v3 _ _ _ rfl

theorem pay1_apply (v0 : Vec Ideal S384x256 .f32) (v3 : Vec Ideal S1x384 .f32) (v39 : Vec Ideal S1x1024x256 .f32) (d : Fin 128) :
    Cert.KernelIdeal.Gen.k0_pay1 (F := Ideal) (Cert.KernelIdeal.Gen.k0_pay2 v0) (Cert.KernelIdeal.Gen.k0_pay3 v3) v39 (ix3 (0 : Fin 1) (0 : Fin 1) d) = Cert.AttnSpec.headCat (fun s x => v39 (ix3 (0 : Fin 1) s x)) (fun n x => v0 (ix2 n x)) (fun n => v3 (ix2 (0 : Fin 1) n)) d := by
  refine (congrFun (pay1_eq _ _ v39) _).trans ?_
  refine (core _ _ v39 d).trans ?_
  have h2 : (fun n x => Gen.k0_pay2 (F := Ideal) v0 (ix2 n x)) = fun n x => v0 (ix2 n x) :=
    funext fun n => funext fun x => pay2_at v0 n x
  have h3 : (fun n => Gen.k0_pay3 (F := Ideal) v3 (ix2 (0 : Fin 1) n)) = fun n => v3 (ix2 (0 : Fin 1) n) :=
    funext fun n => pay3_at v3 n
  rw [h2, h3]

theorem pay4_apply (v0 : Vec Ideal S384x256 .f32) (v3 : Vec Ideal S1x384 .f32) (v6 : Vec Ideal S1x1024x256 .f32) (d : Fin 128) :
    Cert.KernelIdeal.Gen.k0_pay4 (F := Ideal) v0 v3 v6 (ix3 (0 : Fin 1) (0 : Fin 1) d) = Cert.AttnSpec.headCat (fun s x => v6 (ix3 (0 : Fin 1) s x)) (fun n x => v0 (ix2 n x)) (fun n => v3 (ix2 (0 : Fin 1) n)) d :=
  (congrFun ((pay4_eq v0 v3 v6).trans (pay1_eq _ _ v6).symm) _).trans (pay1_apply v0 v3 v6 d)

end Cert.KernelSide

end
-- ==== Proof.RefIsSpec.lean ====
/-
  The reference program computes the specification's array.

  The reference is read one stage at a time at explicit coordinates `(b, i, k)` (batch element, query row, key row) or
  `(b, s, y)` (batch element, row, feature): the three affine projections, the scaled scores, the column maximum (a
  fold of `max` from −∞ over the query rows, and a further `max` with −∞ that changes nothing), the shifted
  exponential, the column sum from zero, the quotient, the mixture with the value rows, and the final fold of `max`
  from −∞ over the query rows. Each stage is the specification's function of the same name, so the composition is
  `G`. Division by the constant 11863283 / 1048576 is multiplication by its reciprocal at every extended real.
-/
import proofs.«170889_j5738076307482_2_alg».proof.Proof.Gen.ReferenceIdeal.Read
import proofs.«170889_j5738076307482_2_alg».proof.Proof.AttnSpec

noncomputable section

namespace Cert.RefSide

open Cert.ReferenceIdeal Cert.ReferenceIdeal.Gen Cert.ReferenceIdeal.Read Cert.AttnSpec
open Idealize.ShloMosaic Idealize.ShloMosaic.ValueIdx

/-- An affine projection stage of the reference (a `dot_general` against a weight matrix plus a bias broadcast over
    batch and row), read at explicit coordinates: it is the specification's `proj`. -/
theorem proj_read (x0 : (⟨S64x1024x256, .f32⟩ : BufTy).Contents (Elt Ideal))
    (W : (⟨S128x256, .f32⟩ : BufTy).Contents (Elt Ideal)) (c : (⟨S128, .f32⟩ : BufTy).Contents (Elt Ideal))
    (b : Fin 64) (s : Fin 1024) (y : Fin 128) :
    val_main_v3 (F := Ideal) x0 W c (ix3 b s y)
      = proj (fun s x => x0 (ix3 b s x)) (fun y x => W (ix2 y x)) (fun y => c (ix1 y)) s y := by
  rw [val_main_v3_apply, val_main_v0_apply, val_main_v2_apply, val_main_v1_apply]
  have el : ∀ k : Fin 256, lidx_main_v0 (ix3 b s y) k = ix3 b s k := fun k =>
    funext fun a => Fin.ext (by match a with | ⟨0, _⟩ => rfl | ⟨1, _⟩ => rfl | ⟨2, _⟩ => rfl)
  have er : ∀ k : Fin 256, ridx_main_v0 (ix3 b s y) k = ix2 y k := fun k =>
    funext fun a => Fin.ext (by match a with | ⟨0, _⟩ => rfl | ⟨1, _⟩ => rfl)
  have ec : idx_main_v1 (idx_main_v2 (ix3 b s y)) = ix1 y :=
    funext fun a => Fin.ext (by match a with | ⟨0, _⟩ => rfl)
  rw [ec]
  show (∑ k, x0 (lidx_main_v0 (ix3 b s y) k) * W (ridx_main_v0 (ix3 b s y) k)) + c (ix1 y) = _
  unfold proj
  exact congrArg (· + c (ix1 y)) (Finset.sum_congr rfl fun k _ => by rw [el, er])

/-- The key projection is the same operations on other arguments. -/
theorem projK_read (x0 : (⟨S64x1024x256, .f32⟩ : BufTy).Contents (Elt Ideal))
    (W : (⟨S128x256, .f32⟩ : BufTy).Contents (Elt Ideal)) (c : (⟨S128, .f32⟩ : BufTy).Contents (Elt Ideal))
    (b : Fin 64) (s : Fin 1024) (y : Fin 128) :
    val_main_v7 (F := Ideal) x0 W c (ix3 b s y)
      = proj (fun s x => x0 (ix3 b s x)) (fun y x => W (ix2 y x)) (fun y => c (ix1 y)) s y :=
  proj_read x0 W c b s y

/-- The value projection likewise. -/
theorem projV_read (x0 : (⟨S64x1024x256, .f32⟩ : BufTy).Contents (Elt Ideal))
    (W : (⟨S128x256, .f32⟩ : BufTy).Contents (Elt Ideal)) (c : (⟨S128, .f32⟩ : BufTy).Contents (Elt Ideal))
    (b : Fin 64) (s : Fin 1024) (y : Fin 128) :
    val_main_v11 (F := Ideal) x0 W c (ix3 b s y)
      = proj (fun s x => x0 (ix3 b s x)) (fun y x => W (ix2 y x)) (fun y => c (ix1 y)) s y :=
  proj_read x0 W c b s y

/-- The divisor the reference spells is the rational 11863283 / 1048576. -/
theorem divisor_eq : Ideal.ofBits .f32 0x413504F3#32 = ((11863283 / 1048576 : ℝ) : EReal) := by
  simp [Ideal.ofBits, Ideal.ieee, -EReal.coe_mul]
  norm_num

/-- Dividing by that constant is multiplying by the specification's `scale`. -/
theorem div_divisor (x : EReal) : Ideal.div x (Ideal.ofBits .f32 0x413504F3#32) = x * scale := by
  rw [divisor_eq, Ideal.div_coe (by norm_num)]
  congr 2
  norm_num

/-- The specification's score matrix of batch element `b`, from the reference's arguments. -/
abbrev specS (x0 : (⟨S64x1024x256, .f32⟩ : BufTy).Contents (Elt Ideal))
    (x1 : (⟨S128x256, .f32⟩ : BufTy).Contents (Elt Ideal)) (x2 : (⟨S128, .f32⟩ : BufTy).Contents (Elt Ideal))
    (x3 : (⟨S128x256, .f32⟩ : BufTy).Contents (Elt Ideal)) (x4 : (⟨S128, .f32⟩ : BufTy).Contents (Elt Ideal))
    (b : Fin 64) : Fin 1024 → Fin 1024 → EReal :=
  score (proj (fun s x => x0 (ix3 b s x)) (fun y x => x1 (ix2 y x)) (fun y => x2 (ix1 y)))
    (proj (fun s x => x0 (ix3 b s x)) (fun y x => x3 (ix2 y x)) (fun y => x4 (ix1 y)))

/-- The specification's value rows of batch element `b`. -/
abbrev specV (x0 : (⟨S64x1024x256, .f32⟩ : BufTy).Contents (Elt Ideal))
    (x5 : (⟨S128x256, .f32⟩ : BufTy).Contents (Elt Ideal)) (x6 : (⟨S128, .f32⟩ : BufTy).Contents (Elt Ideal))
    (b : Fin 64) : Fin 1024 → Fin 128 → EReal :=
  proj (fun s x => x0 (ix3 b s x)) (fun y x => x5 (ix2 y x)) (fun y => x6 (ix1 y))

section Stages

variable (x0 : (⟨S64x1024x256, .f32⟩ : BufTy).Contents (Elt Ideal))
  (x1 : (⟨S128x256, .f32⟩ : BufTy).Contents (Elt Ideal)) (x2 : (⟨S128, .f32⟩ : BufTy).Contents (Elt Ideal))
  (x3 : (⟨S128x256, .f32⟩ : BufTy).Contents (Elt Ideal)) (x4 : (⟨S128, .f32⟩ : BufTy).Contents (Elt Ideal))
  (x5 : (⟨S128x256, .f32⟩ : BufTy).Contents (Elt Ideal)) (x6 : (⟨S128, .f32⟩ : BufTy).Contents (Elt Ideal))

/-- The scaled scores: the batched contraction of query row `i` with key row `k` over the 128 features, divided by
    the constant. -/
theorem score_read (b : Fin 64) (i k : Fin 1024) :
    val_main_v14 (F := Ideal) x0 x1 x2 x3 x4 (ix3 b i k) = specS x0 x1 x2 x3 x4 b i k := by
  rw [val_main_v14_apply, val_main_v13_apply, val_main_cst_apply, val_main_v12_apply]
  have el : ∀ d : Fin 128, lidx_main_v12 (ix3 b i k) d = ix3 b i d := fun d =>
    funext fun a => Fin.ext (by match a with | ⟨0, _⟩ => rfl | ⟨1, _⟩ => rfl | ⟨2, _⟩ => rfl)
  have er : ∀ d : Fin 128, ridx_main_v12 (ix3 b i k) d = ix3 b k d := fun d =>
    funext fun a => Fin.ext (by match a with | ⟨0, _⟩ => rfl | ⟨1, _⟩ => rfl | ⟨2, _⟩ => rfl)
  refine (div_divisor _).trans ?_
  show _ = (∑ d : Fin 128, _ * _) * scale
  exact congrArg (· * scale) (Finset.sum_congr rfl fun d _ => by rw [el, er, proj_read, projK_read])

/-- Dropping the query-row axis of the score array leaves the `(b, k)` array. -/
theorem reduces_scores : S64x1024x1024.Reduces [1] S64x1024 := by decide
/-- Dropping the query-row axis of the mixture leaves the `(b, d)` array. -/
theorem reduces_mix : S64x1024x128.Reduces [1] S64x128 := by decide

/-- Result index `(b, k)` with query row `i` inserted on the dropped axis is `(b, i, k)`. -/
theorem lift_scores (b : Fin 64) (k i : Fin 1024) : reduces_scores.lift (ix2 b k) i = ix3 b i k :=
  funext fun a => Fin.ext (by match a with | ⟨0, _⟩ => rfl | ⟨1, _⟩ => rfl | ⟨2, _⟩ => rfl)
/-- Result index `(b, d)` with query row `i` inserted on the dropped axis is `(b, i, d)`. -/
theorem lift_mix (b : Fin 64) (d : Fin 128) (i : Fin 1024) : reduces_mix.lift (ix2 b d) i = ix3 b i d :=
  funext fun a => Fin.ext (by match a with | ⟨0, _⟩ => rfl | ⟨1, _⟩ => rfl | ⟨2, _⟩ => rfl)

/-- The column maximum as the reference reduces it: the fold of `max` from −∞ over the query rows. -/
theorem colMax_read0 (b : Fin 64) (k : Fin 1024) :
    val_main_v15 (F := Ideal) x0 x1 x2 x3 x4 (ix2 b k) = colMax (specS x0 x1 x2 x3 x4 b) k := by
  unfold val_main_v15
  rw [Host.reduce_eq_fold_single FloatOps.maximumf _ _ reducesTo_S64x1024x1024_S64x1024_d1 reduces_scores h_S_]
  show (Finset.univ : Finset (Fin 1024)).fold max ninf
      (fun i : Fin 1024 => val_main_v14 (F := Ideal) x0 x1 x2 x3 x4 (reduces_scores.lift (ix2 b k) i))
    = (Finset.univ : Finset (Fin 1024)).fold max ninf (fun i => specS x0 x1 x2 x3 x4 b i k)
  exact Finset.fold_congr fun i _ => by rw [lift_scores, score_read]

/-- A fold of `max` from −∞ is at least −∞, so the further maximum with −∞ the reference takes changes nothing. -/
theorem colMax_read (b : Fin 64) (k : Fin 1024) :
    val_main_v17 (F := Ideal) x0 x1 x2 x3 x4 (ix2 b k) = colMax (specS x0 x1 x2 x3 x4 b) k := by
  rw [val_main_v17_apply, val_main_v16_apply, val_main_cst_1_apply, colMax_read0]
  show max ninf (colMax _ k) = _
  exact max_eq_right ((Finset.le_fold_max (c := ninf)).2 (Or.inl le_rfl))

/-- The shifted exponential: the column maximum is broadcast back over the query rows, subtracted, exponentiated. -/
theorem expo_read (b : Fin 64) (i k : Fin 1024) :
    val_main_v21 (F := Ideal) x0 x1 x2 x3 x4 (ix3 b i k) = expo (specS x0 x1 x2 x3 x4 b) i k := by
  rw [val_main_v21_apply, val_main_v20_apply, val_main_v19_apply, val_main_v18_apply, score_read]
  have e : idx_main_v18 (idx_main_v19 (ix3 b i k)) = ix2 b k :=
    funext fun a => Fin.ext (by match a with | ⟨0, _⟩ => rfl | ⟨1, _⟩ => rfl)
  rw [e, colMax_read]
  rfl

/-- The column's normaliser: the sum over the query rows, from the zero word. -/
theorem colSum_read (b : Fin 64) (k : Fin 1024) :
    val_main_v22 (F := Ideal) x0 x1 x2 x3 x4 (ix2 b k) = colSum (specS x0 x1 x2 x3 x4 b) k := by
  rw [val_main_v22_apply, val_main_cst_2_apply]
  have e : ∀ i : Fin 1024, idx_main_v22 (ix2 b k) i = ix3 b i k := fun i =>
    funext fun a => Fin.ext (by match a with | ⟨0, _⟩ => rfl | ⟨1, _⟩ => rfl | ⟨2, _⟩ => rfl)
  show Ideal.ofBits .f32 0x00000000#32 + _ = _
  rw [Ideal.ofBits_zero_f32, zero_add]
  unfold colSum
  exact Finset.sum_congr rfl fun i _ => by rw [e, expo_read]

/-- The softmax weight: the normaliser is broadcast back over the query rows and divided into the exponential. -/
theorem weight_read (b : Fin 64) (i k : Fin 1024) :
    val_main_v25 (F := Ideal) x0 x1 x2 x3 x4 (ix3 b i k) = weight (specS x0 x1 x2 x3 x4 b) i k := by
  rw [val_main_v25_apply, val_main_v24_apply, val_main_v23_apply, expo_read]
  have e : idx_main_v23 (idx_main_v24 (ix3 b i k)) = ix2 b k :=
    funext fun a => Fin.ext (by match a with | ⟨0, _⟩ => rfl | ⟨1, _⟩ => rfl)
  rw [e, colSum_read]
  rfl

/-- The mixture: the batched contraction of the weights of query row `i` with the value rows. -/
theorem mix_read (b : Fin 64) (i : Fin 1024) (d : Fin 128) :
    val_main_v26 (F := Ideal) x0 x1 x2 x3 x4 x5 x6 (ix3 b i d)
      = mix (specS x0 x1 x2 x3 x4 b) (specV x0 x5 x6 b) i d := by
  rw [val_main_v26_apply]
  have el : ∀ k : Fin 1024, lidx_main_v26 (ix3 b i d) k = ix3 b i k := fun k =>
    funext fun a => Fin.ext (by match a with | ⟨0, _⟩ => rfl | ⟨1, _⟩ => rfl | ⟨2, _⟩ => rfl)
  have er : ∀ k : Fin 1024, ridx_main_v26 (ix3 b i d) k = ix3 b k d := fun k =>
    funext fun a => Fin.ext (by match a with | ⟨0, _⟩ => rfl | ⟨1, _⟩ => rfl | ⟨2, _⟩ => rfl)
  unfold mix
  exact Finset.sum_congr rfl fun k _ => by rw [el, er, weight_read, projV_read]

/-- The pooled result: the fold of `max` from −∞ over the query rows of the mixture. -/
theorem pooled_read (b : Fin 64) (d : Fin 128) :
    val_main_v27 (F := Ideal) x0 x1 x2 x3 x4 x5 x6 (ix2 b d)
      = pooled (specS x0 x1 x2 x3 x4 b) (specV x0 x5 x6 b) d := by
  unfold val_main_v27
  rw [Host.reduce_eq_fold_single FloatOps.maximumf _ _ reducesTo_S64x1024x128_S64x128_d1 reduces_mix h_S_]
  show (Finset.univ : Finset (Fin 1024)).fold max ninf
      (fun i : Fin 1024 => val_main_v26 (F := Ideal) x0 x1 x2 x3 x4 x5 x6 (reduces_mix.lift (ix2 b d) i))
    = (Finset.univ : Finset (Fin 1024)).fold max ninf (fun i => mix (specS x0 x1 x2 x3 x4 b) (specV x0 x5 x6 b) i d)
  exact Finset.fold_congr fun i _ => by rw [lift_mix, mix_read]

end Stages

/-- The reference program's result is the specification's array. -/
theorem ref_is_spec (x0 : (⟨S64x1024x256, .f32⟩ : BufTy).Contents (Elt Ideal)) (x1 : (⟨S128x256, .f32⟩ : BufTy).Contents (Elt Ideal)) (x2 : (⟨S128, .f32⟩ : BufTy).Contents (Elt Ideal)) (x3 : (⟨S128x256, .f32⟩ : BufTy).Contents (Elt Ideal)) (x4 : (⟨S128, .f32⟩ : BufTy).Contents (Elt Ideal)) (x5 : (⟨S128x256, .f32⟩ : BufTy).Contents (Elt Ideal)) (x6 : (⟨S128, .f32⟩ : BufTy).Contents (Elt Ideal)) :
    Cert.ReferenceIdeal.Read.val_main_v27 (F := Ideal) x0 x1 x2 x3 x4 x5 x6 = Cert.AttnSpec.G x0 x1 x2 x3 x4 x5 x6 := by
  funext j
  obtain ⟨b, d, rfl⟩ : ∃ (b : Fin 64) (d : Fin 128), j = ix2 b d := ⟨j 0, j 1, eq_ix2 (n0 := 64) (n1 := 128) j⟩
  rw [G_apply, pooled_read]
  rfl

end Cert.RefSide

end
-- ==== Proof.lean ====
/-
  A Pallas attention kernel against its jnp reference, over the extended reals.

  Both programs take a batch of 64 row blocks `q[b] : 1024 × 256`, three weight matrices and three bias vectors. For each
  batch element they form queries, keys and values `Q, K, V = q[b] · Wᵀ + bias`; the scores `Q Kᵀ` scaled; a softmax
  taken over the QUERY axis (each column of the score matrix is normalised); the product of the weights with `V`; and
  the maximum over the query axis, one row of 128 features per batch element (Proof/AttnSpec.lean states this as one
  function `G` of the seven arrays).

  The kernel stacks the three weight matrices and lays the bias vectors end to end on the host, runs two batch elements
  per grid point with one fused projection, rounds operands to bf16 on the way into each matrix product (the identity on
  the extended reals), and multiplies the scores by a literal; the reference divides them by the literal
  11863283 / 1048576. The kernel's literal is read, by name, as the exact reciprocal 1048576 / 11863283 — that reading
  is what `preserves` records — and division by a nonzero real is multiplication by its reciprocal on every extended
  real, so the two scalings agree with no finiteness assumption; the rest is the same sums, maxima, exponentials and
  quotients in both programs, index by index.

  Proof/KernelFrame.lean and Proof/KernelIdealFrame.lean run the two kernel programs (termination, no fault, arguments
  unchanged, and what each staged array ends holding); Proof/KernelArray.lean reads the idealized kernel's result array
  as `G` of the arguments, given the body's arithmetic (Proof/PayloadIsSpec.lean); Proof/RefIsSpec.lean reads the
  reference's result as `G` of the arguments. Here the five claims are assembled.
-/
import proofs.«170889_j5738076307482_2_alg».proof.Defs
import proofs.«170889_j5738076307482_2_alg».proof.Proof.KernelFrame
import proofs.«170889_j5738076307482_2_alg».proof.Proof.KernelIdealFrame
import proofs.«170889_j5738076307482_2_alg».proof.Proof.KernelArray
import proofs.«170889_j5738076307482_2_alg».proof.Proof.PayloadIsSpec
import proofs.«170889_j5738076307482_2_alg».proof.Proof.RefIsSpec
import proofs.«170889_j5738076307482_2_alg».proof.Proof.Gen.Kernel
import proofs.«170889_j5738076307482_2_alg».proof.Proof.Gen.KernelIdeal
import proofs.«170889_j5738076307482_2_alg».proof.Proof.Gen.ReferenceIdeal
import proofs.«170889_j5738076307482_2_alg».proof.Proof.Gen.ReferenceIdeal.Run
import proofs.«170889_j5738076307482_2_alg».proof.Proof.Gen.ReferenceIdeal.Read
import proofs.«170889_j5738076307482_2_alg».proof.Proof.Gen.Pre_finite_inputs
import Idealize.ShloMosaic.PureOps.IdealRules
import Idealize.ShloMosaic.Adequacy
import Idealize.ShloMosaic.Init

noncomputable section

namespace Cert.Proof

open Idealize.ShloMosaic Idealize.SL.Sem

/-- The kernel as printed runs to its end, faults nowhere and leaves its arguments as launched. -/
theorem frame_kernel : Cert.frame_Kernel := fun m ρ _ => Cert.Kernel.Frame.frame m ρ

/-- So does the idealized kernel. -/
theorem frame_kernelIdeal : Cert.frame_KernelIdeal := fun m ρ _ => Cert.KernelIdeal.Frame.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization, at its two sites: the score scale's literal is read as 1048576 / 11863283. -/
theorem preserves : Cert.preserves_Kernel_KernelIdeal :=
  ⟨IdealRules.named_const.statement Cert.KernelIdeal.κ "inv_scale" .f32 0x3DB504F3#32 ((1048576 / 11863283 : ℝ) : EReal) rfl,
    IdealRules.named_const.statement Cert.KernelIdeal.κ "inv_scale" .f32 0x3DB504F3#32 ((1048576 / 11863283 : ℝ) : EReal) rfl⟩

/-- From memories that agree on the seven arguments, both idealized programs end with their result at `G` of the
    arguments. -/
theorem algebraic : Cert.algebraic_KernelIdeal_ReferenceIdeal := by
  intro m ρ m' ρ' _ hagree
  refine ⟨_, Cert.KernelArr.run m ρ Cert.KernelSide.pay4_apply Cert.KernelSide.pay1_apply, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.RefSide.ref_is_spec, (hagree c).1, (hagree c).2.1, (hagree c).2.2.1,
    (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
